-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S200000x128 : Shape := ⟨2, ![200000, 128]⟩
abbrev S2x200000 : Shape := ⟨2, ![2, 200000]⟩
abbrev S256x128 : Shape := ⟨2, ![256, 128]⟩
abbrev S128 : Shape := ⟨1, ![128]⟩
abbrev S384x384 : Shape := ⟨2, ![384, 384]⟩
abbrev S384 : Shape := ⟨1, ![384]⟩
abbrev S384x128 : Shape := ⟨2, ![384, 128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S384 .f32) (main_arg9 : FVec F S384x128 .f32) (main_arg10 : FVec F S128 .f32) (main_arg11 : FVec F S128 .f32) (main_arg12 : FVec F S128 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S384x384 .f32) (main_arg6 : FVec F S384 .f32) (main_arg7 : FVec F S384x384 .f32) (main_arg8 : FVec F S384 .f32) (main_arg9 : FVec F S384x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x384 .f32 := Host.absf main_arg5
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x384 .f32 := Host.absf main_arg7
  let main_cst_10 : FVec F S_ .f32 := constant S_ .f32 0x7F800000#32
  let main_v30 : FVec F S384x384 .f32 := broadcastInDim S384x384 ![] bcast_S_S384x384 main_cst_10
  let main_v31 : IVec S384x384 1 := cmpf .olt main_v29 main_v30
  let main_c_11 : IVec S_ 1 := constantI S_ 1 1#1
  let main_v32 : IVec S_ 1 := (fun x v => Host.reduce IntOp.andi x v reducesTo_S384x384_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x256 .f32) (main_arg1 : FVec F S200000x128 .f32) (main_arg2 : IVec S2x200000 32) (main_arg3 : FVec F S256x128 .f32) (main_arg4 : FVec F S128 .f32) (main_arg5 : FVec F S384x384 .f32) (main_arg6 : FVec F S384 .f32) (main_arg7 : FVec F S384x384 .f32) (main_arg8 : FVec F S384 .f32) (main_arg9 : FVec F S384x128 .f32) (main_arg10 : FVec F S128 .f32) (main_arg11 : FVec F S128 .f32) (main_arg12 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S10000x256 : Shape := ⟨2, ![10000, 256]⟩
abbrev S200000x128 : Shape := ⟨2, ![200000, 128]⟩
abbrev S2x200000 : Shape := ⟨2, ![2, 200000]⟩
abbrev S256x128 : Shape := ⟨2, ![256, 128]⟩
abbrev S128 : Shape := ⟨1, ![128]⟩
abbrev S384x384 : Shape := ⟨2, ![384, 384]⟩
abbrev S384 : Shape := ⟨1, ![384]⟩
abbrev S384x128 : Shape := ⟨2, ![384, 128]⟩
abbrev S10000x128 : Shape := ⟨2, ![10000, 128]⟩
abbrev S2000x256 : Shape := ⟨2, ![2000, 256]⟩
abbrev S2000x128 : Shape := ⟨2, ![2000, 128]⟩
abbrev S1x128 : Shape := ⟨2, ![1, 128]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x384 : Shape := ⟨2, ![200000, 384]⟩
abbrev S2000x384 : Shape := ⟨2, ![2000, 384]⟩
abbrev S1x384 : Shape := ⟨2, ![1, 384]⟩
abbrev S2000 : Shape := ⟨1, ![2000]⟩
abbrev S2000x1 : Shape := ⟨2, ![2000, 1]⟩

abbrev nBuf : Space → Nat
  | .hbm => 41
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S200000x128, .f32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S384x384, .f32⟩
  | .hbm, ⟨6, _⟩ => ⟨S384, .f32⟩
  | .hbm, ⟨7, _⟩ => ⟨S384x384, .f32⟩
  | .hbm, ⟨8, _⟩ => ⟨S384, .f32⟩
  | .hbm, ⟨9, _⟩ => ⟨S384x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S10000x128, .f32⟩
  | .hbm, ⟨14, _⟩ => ⟨S1x200000, .i32⟩
  | .hbm, ⟨15, _⟩ => ⟨S200000, .i32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x128, .f32⟩
  | .hbm, ⟨25, _⟩ => ⟨S1x200000, .i32⟩
  | .hbm, ⟨26, _⟩ => ⟨S200000, .i32⟩
  | .hbm, ⟨27, _⟩ => ⟨S_, .i32⟩
  | .hbm, ⟨28, _⟩ => ⟨S200000, .i32⟩
  | .hbm, ⟨29, _⟩ => ⟨S200000, .i1⟩
  | .hbm, ⟨30, _⟩ => ⟨S_, .i32⟩
  | .hbm, ⟨31, _⟩ => ⟨S200000, .i32⟩
  | .hbm, ⟨32, _⟩ => ⟨S200000, .i32⟩
  | .hbm, ⟨33, _⟩ => ⟨S200000, .i32⟩
  | .hbm, ⟨34, _⟩ => ⟨S200000x1, .i32⟩
  | .hbm, ⟨35, _⟩ => ⟨S200000x128, .f32⟩
  | .hbm, ⟨36, _⟩ => ⟨S200000x384, .f32⟩
  | .hbm, ⟨37, _⟩ => ⟨S384x384, .bf16⟩
  | .hbm, ⟨38, _⟩ => ⟨S384x384, .bf16⟩
  | .hbm, ⟨39, _⟩ => ⟨S384x128, .bf16⟩
  | .hbm, ⟨40, _⟩ => ⟨S200000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x384, .f32⟩
  | .local _ .vmem, ⟨7, _⟩ => ⟨S2000x384, .f32⟩
  | .local _ .vmem, ⟨8, _⟩ => ⟨S384x384, .bf16⟩
  | .local _ .vmem, ⟨9, _⟩ => ⟨S384, .f32⟩
  | .local _ .vmem, ⟨10, _⟩ => ⟨S384x384, .bf16⟩
  | .local _ .vmem, ⟨11, _⟩ => ⟨S384, .f32⟩
  | .local _ .vmem, ⟨12, _⟩ => ⟨S384x128, .bf16⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x128_S200000x384_d1 : Shape.Concatenates [S200000x128, S200000x128, S200000x128] S200000x384 1
  bitsLt_bf16_f32 : FTy.bits .bf16 < FTy.bits .f32
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  reduces_S2000x128_S2000 : S2000x128.Reduces [1] S2000
  shapeCasts_S2000_S2000x1 : S2000.ShapeCasts S2000x1
  broadcasts_S2000x1_S2000x128 : S2000x1.Broadcasts S2000x128
  dot_S2000x256_S256x128_S2000x128_1_0_0_1_n_n_wf : DotDims.WF S2000x256 S256x128 S2000x128 [1] [0] [0] [1] [] []
  gather_S10000x128_S200000x1_S200000x128_1_0_n_n_0_1_1128_wf : GatherDims.WF S10000x128 S200000x1 S200000x128 [1] [0] [] [0] [] 1 ![1, 128]
  dot_S2000x384_S384x384_S2000x384_1_0_0_1_n_n_wf : DotDims.WF S2000x384 S384x384 S2000x384 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S200000x384.size a
  hwx1_0 : ∀ i : grid1.Coords, EltTy.bits .f32 = 32 ∨ (Rect.block (s := S200000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x384.size a ≤ S384x384.size a
  hwx1_1 : ∀ i : grid1.Coords, EltTy.bits .bf16 = 32 ∨ (Rect.block (s := S384x384) S384x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384.size a ≤ S384.size a
  hwx1_2 : ∀ i : grid1.Coords, EltTy.bits .f32 = 32 ∨ (Rect.block (s := S384) S384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .bf16 = 32 ∨ (Rect.block (s := S384x384) S384x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384.size a ≤ S384.size a
  hwx1_4 : ∀ i : grid1.Coords, EltTy.bits .f32 = 32 ∨ (Rect.block (s := S384) S384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x128.size a ≤ S384x128.size a
  hwx1_5 : ∀ i : grid1.Coords, EltTy.bits .bf16 = 32 ∨ (Rect.block (s := S384x128) S384x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S200000x128.size a
  hwx1_9 : ∀ i : grid1.Coords, EltTy.bits .f32 = 32 ∨ (Rect.block (s := S200000x128) S2000x128.size (cc1_transform_9 i) (hinb1_9 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S384x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S384x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x256 : Shape := ⟨2, ![10000, 256]⟩
abbrev S200000x128 : Shape := ⟨2, ![200000, 128]⟩
abbrev S2x200000 : Shape := ⟨2, ![2, 200000]⟩
abbrev S256x128 : Shape := ⟨2, ![256, 128]⟩
abbrev S128 : Shape := ⟨1, ![128]⟩
abbrev S384x384 : Shape := ⟨2, ![384, 384]⟩
abbrev S384 : Shape := ⟨1, ![384]⟩
abbrev S384x128 : Shape := ⟨2, ![384, 128]⟩
abbrev S10000x128 : Shape := ⟨2, ![10000, 128]⟩
abbrev S1x128 : Shape := ⟨2, ![1, 128]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x384 : Shape := ⟨2, ![200000, 384]⟩
abbrev S1x384 : Shape := ⟨2, ![1, 384]⟩

abbrev nBuf : Space → Nat
  | .hbm => 88
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S200000x128, .f32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S384x384, .f32⟩
  | .hbm, ⟨6, _⟩ => ⟨S384, .f32⟩
  | .hbm, ⟨7, _⟩ => ⟨S384x384, .f32⟩
  | .hbm, ⟨8, _⟩ => ⟨S384, .f32⟩
  | .hbm, ⟨9, _⟩ => ⟨S384x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S1x200000, .i32⟩
  | .hbm, ⟨18, _⟩ => ⟨S200000, .i32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x128, .f32⟩
  | .hbm, ⟨28, _⟩ => ⟨S1x200000, .i32⟩
  | .hbm, ⟨29, _⟩ => ⟨S200000, .i32⟩
  | .hbm, ⟨30, _⟩ => ⟨S_, .i32⟩
  | .hbm, ⟨31, _⟩ => ⟨S200000, .i32⟩
  | .hbm, ⟨32, _⟩ => ⟨S200000, .i1⟩
  | .hbm, ⟨33, _⟩ => ⟨S_, .i32⟩
  | .hbm, ⟨34, _⟩ => ⟨S200000, .i32⟩
  | .hbm, ⟨35, _⟩ => ⟨S200000, .i32⟩
  | .hbm, ⟨36, _⟩ => ⟨S200000, .i32⟩
  | .hbm, ⟨37, _⟩ => ⟨S200000x1, .i32⟩
  | .hbm, ⟨38, _⟩ => ⟨S200000x128, .f32⟩
  | .hbm, ⟨39, _⟩ => ⟨S200000x384, .f32⟩
  | .hbm, ⟨40, _⟩ => ⟨S200000x384, .f32⟩
  | .hbm, ⟨41, _⟩ => ⟨S1x384, .f32⟩
  | .hbm, ⟨42, _⟩ => ⟨S200000x384, .f32⟩
  | .hbm, ⟨43, _⟩ => ⟨S200000x384, .f32⟩
  | .hbm, ⟨44, _⟩ => ⟨S_, .f32⟩
  | .hbm, ⟨45, _⟩ => ⟨S200000x384, .f32⟩
  | .hbm, ⟨46, _⟩ => ⟨S200000x384, .f32⟩
  | .hbm, ⟨47, _⟩ => ⟨S200000x384, .f32⟩
  | .hbm, ⟨48, _⟩ => ⟨S1x384, .f32⟩
  | .hbm, ⟨49, _⟩ => ⟨S200000x384, .f32⟩
  | .hbm, ⟨50, _⟩ => ⟨S200000x384, .f32⟩
  | .hbm, ⟨51, _⟩ => ⟨S_, .f32⟩
  | .hbm, ⟨52, _⟩ => ⟨S200000x384, .f32⟩
  | .hbm, ⟨53, _⟩ => ⟨S200000x384, .f32⟩
  | .hbm, ⟨54, _⟩ => ⟨S200000x384, .f32⟩
  | .hbm, ⟨55, _⟩ => ⟨S200000x128, .f32⟩
  | .hbm, ⟨56, _⟩ => ⟨S1x128, .f32⟩
  | .hbm, ⟨57, _⟩ => ⟨S200000x128, .f32⟩
  | .hbm, ⟨58, _⟩ => ⟨S200000x128, .f32⟩
  | .hbm, ⟨59, _⟩ => ⟨S_, .f32⟩
  | .hbm, ⟨60, _⟩ => ⟨S200000, .f32⟩
  | .hbm, ⟨61, _⟩ => ⟨S200000x1, .f32⟩
  | .hbm, ⟨62, _⟩ => ⟨S_, .f32⟩
  | .hbm, ⟨63, _⟩ => ⟨S200000x1, .f32⟩
  | .hbm, ⟨64, _⟩ => ⟨S200000x1, .f32⟩
  | .hbm, ⟨65, _⟩ => ⟨S200000x128, .f32⟩
  | .hbm, ⟨66, _⟩ => ⟨S200000x128, .f32⟩
  | .hbm, ⟨67, _⟩ => ⟨S200000x128, .f32⟩
  | .hbm, ⟨68, _⟩ => ⟨S_, .f32⟩
  | .hbm, ⟨69, _⟩ => ⟨S200000, .f32⟩
  | .hbm, ⟨70, _⟩ => ⟨S200000x1, .f32⟩
  | .hbm, ⟨71, _⟩ => ⟨S_, .f32⟩
  | .hbm, ⟨72, _⟩ => ⟨S200000x1, .f32⟩
  | .hbm, ⟨73, _⟩ => ⟨S200000x1, .f32⟩
  | .hbm, ⟨74, _⟩ => ⟨S200000x128, .f32⟩
  | .hbm, ⟨75, _⟩ => ⟨S200000x128, .f32⟩
  | .hbm, ⟨76, _⟩ => ⟨S_, .f32⟩
  | .hbm, ⟨77, _⟩ => ⟨S200000x1, .f32⟩
  | .hbm, ⟨78, _⟩ => ⟨S200000x1, .f32⟩
  | .hbm, ⟨79, _⟩ => ⟨S200000x1, .f32⟩
  | .hbm, ⟨80, _⟩ => ⟨S200000x128, .f32⟩
  | .hbm, ⟨81, _⟩ => ⟨S200000x128, .f32⟩
  | .hbm, ⟨82, _⟩ => ⟨S1x128, .f32⟩
  | .hbm, ⟨83, _⟩ => ⟨S200000x128, .f32⟩
  | .hbm, ⟨84, _⟩ => ⟨S200000x128, .f32⟩
  | .hbm, ⟨85, _⟩ => ⟨S1x128, .f32⟩
  | .hbm, ⟨86, _⟩ => ⟨S200000x128, .f32⟩
  | .hbm, ⟨87, _⟩ => ⟨S200000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_cst : Ref sig .tc := ⟨.hbm, 44, rfl⟩
abbrev main_call0_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x128_S200000x384_d1 : Shape.Concatenates [S200000x128, S200000x128, S200000x128] S200000x384 1
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  bcast_S_S200000x384 : S_.BroadcastsInDim S200000x384 (![] : Fin 0 → Fin S200000x384.rank)
  bcast_S1x128_S200000x128_0_1 : S1x128.BroadcastsInDim S200000x128 (![0, 1] : Fin 2 → Fin S200000x128.rank)
  reducesTo_S200000x128_S200000_d1 : S200000x128.ReducesTo [1] S200000
  h_S_ : 0 < S_.numel
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  dot_S10000x256_S256x128_S10000x128_1_0_0_1_n_n_wf : DotDims.WF S10000x256 S256x128 S10000x128 [1] [0] [0] [1] [] []
  gather_S10000x128_S200000x1_S200000x128_1_0_n_n_0_1_1128_wf : GatherDims.WF S10000x128 S200000x1 S200000x128 [1] [0] [] [0] [] 1 ![1, 128]
  dot_S200000x384_S384x384_S200000x384_1_0_0_1_n_n_wf : DotDims.WF S200000x384 S384x384 S200000x384 [1] [0] [0] [1] [] []
  dot_S200000x384_S384x128_S200000x128_1_0_0_1_n_n_wf : DotDims.WF S200000x384 S384x128 S200000x128 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S200000x1_S200000x128_1_0_n_n_0_1_1128 : GatherDims S10000x128 S200000x1 S200000x128 where
  offsetDims := [1]
  collapsedSliceDims := [0]
  operandBatchingDims := []
  startIndicesBatchingDims := []
  startIndexMap := [0]
  indexVectorDim := 1
  sliceSizes := ![1, 128]
  wf := gather_S10000x128_S200000x1_S200000x128_1_0_n_n_0_1_1128_wf
def dot_S200000x384_S384x384_S200000x384_1_0_0_1_n_n : DotDims S200000x384 S384x384 S200000x384 where
  lhsContracting := [1]
  rhsContracting := [0]
  lhsNonContracting := [0]
  rhsNonContracting := [1]
  lhsBatch := []
  rhsBatch := []
  wf := dot_S200000x384_S384x384_S200000x384_1_0_0_1_n_n_wf
def dot_S200000x384_S384x128_S200000x128_1_0_0_1_n_n : DotDims S200000x384 S384x128 S200000x128 where
  lhsContracting := [1]
  rhsContracting := [0]
  lhsNonContracting := [0]
  rhsNonContracting := [1]
  lhsBatch := []
  rhsBatch := []
  wf := dot_S200000x384_S384x128_S200000x128_1_0_0_1_n_n_wf

class Facts : Prop extends Facts₀ where

variable [Facts]
-- ==== Proof.BitsNode.lean ====
/-
  The node-linear call, read at whatever the buffers hold when it is entered.

  One grid point takes rows 2000·t … 2000·t+1999 of the node table (a 2000 × 256 block), the whole 256 × 128 weight
  matrix and the whole bias row, and leaves in its 2000 × 128 output block the product plus the bias spread over the
  rows. Everything here is stated for ANY contents `V` of the buffers at entry: what each window's block is, what the
  body stores, that one run of the body from the blocks ends with the output block at that value and the inputs
  untouched, and the per-point obligation the launch asks for.
-/
import proofs.«128243_j10479720203131_1_alg».proof.Proof.Gen.Kernel.Launch
import proofs.«128243_j10479720203131_1_alg».proof.Proof.Gen.Kernel.Skeleton
import proofs.«128243_j10479720203131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array (as found at entry) that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole block -/

abbrev r0_0 : Rect S2000x256 := Rect.unit (s := S2000x256) ![0, 0] S2000x256.size inb_S2000x256_S2000x256_0_0
abbrev r0_1 : Rect S256x128 := Rect.unit (s := S256x128) ![0, 0] S256x128.size inb_S256x128_S256x128_0_0
abbrev r0_2 : Rect S128 := Rect.unit (s := S128) ![0] S128.size inb_S128_S128_0
abbrev r0_3 : Rect S2000x128 := Rect.unit (s := S2000x128) ![0, 0] S2000x128.size inb_S2000x128_S2000x128_0_0

/-- What the body leaves in the output block: its one store, of the product-plus-bias of the three input blocks. -/
def out0_3 (x0 : Vec F S2000x256 .f32) (x1 : Vec F S256x128 .f32) (x2 : Vec F S128 .f32) : Vec F S2000x128 .f32 :=
  View.canon [⟨r0_3, k0_pay1 (View.ld x0 r0_0) (View.ld x1 r0_1) (View.ld x2 r0_2)⟩]

/-- The one store covers the block. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in
/-- One run of the body: from the three input blocks in its staging buffers and anything in the output's, it ends with
    the inputs as they were and the output at `out0_3` of them. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S2000x128 .f32) (harg4 : arg4.IsWhole)
    (x0 : Vec F S2000x256 .f32) (x1 : Vec F S256x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_linear_kernel i arg1 harg1 arg2 harg2 arg3 harg3 arg4 harg4) K := by
  simp only [cc0__node_linear_kernel_eq_skeleton]; unfold cc0__node_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The call's proof data on core `c`: the arrays as found at entry; after the body at point `t` each input's buffer
    at its block and the output's at `out0_3` of the three blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's per-point obligation. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsTrunk.lean ====
/-
  The trunk call, read at whatever the buffers hold when it is entered.

  One grid point takes rows 2000·t … 2000·t+1999 of the edge features (a 2000 × 384 block) and, whole, the three weight
  matrices and the five vectors (three biases, the scale and the shift of the normalisation). Row by row it applies two
  affine maps each followed by max(·, 0), adds the input row back, applies the third affine map to 128 columns, and
  normalises the 128 entries of the row: subtracts their mean, multiplies by the reciprocal square root of the mean of
  the squared deviations plus a small constant, scales and shifts. The 2000 × 128 result is the point's output block.
  Everything is stated for ANY contents `V` of the buffers at entry.
-/
import proofs.«128243_j10479720203131_1_alg».proof.Proof.Gen.Kernel.Launch
import proofs.«128243_j10479720203131_1_alg».proof.Proof.Gen.Kernel.Skeleton
import proofs.«128243_j10479720203131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array (as found at entry) that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether the point fetched it or the block index
    stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether the point fetched it or the block index
    stood still since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, whether the point fetched it or the block index
    stood still since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, whether the point fetched it or the block index
    stood still since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, whether the point fetched it or the block index
    stood still since the last fetch. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is its whole block -/

abbrev r1_0 : Rect S2000x384 := Rect.unit (s := S2000x384) ![0, 0] S2000x384.size inb_S2000x384_S2000x384_0_0
abbrev r1_1 : Rect S384x384 := Rect.unit (s := S384x384) ![0, 0] S384x384.size inb_S384x384_S384x384_0_0
abbrev r1_2 : Rect S384 := Rect.unit (s := S384) ![0] S384.size inb_S384_S384_0
abbrev r1_3 : Rect S384x384 := Rect.unit (s := S384x384) ![0, 0] S384x384.size inb_S384x384_S384x384_0_0
abbrev r1_4 : Rect S384 := Rect.unit (s := S384) ![0] S384.size inb_S384_S384_0
abbrev r1_5 : Rect S384x128 := Rect.unit (s := S384x128) ![0, 0] S384x128.size inb_S384x128_S384x128_0_0
abbrev r1_6 : Rect S128 := Rect.unit (s := S128) ![0] S128.size inb_S128_S128_0
abbrev r1_7 : Rect S128 := Rect.unit (s := S128) ![0] S128.size inb_S128_S128_0
abbrev r1_8 : Rect S128 := Rect.unit (s := S128) ![0] S128.size inb_S128_S128_0
abbrev r1_9 : Rect S2000x128 := Rect.unit (s := S2000x128) ![0, 0] S2000x128.size inb_S2000x128_S2000x128_0_0

/-- What the body leaves in the output block: its one store, the normalised rows computed from the nine input blocks. -/
def out1_9 (x0 : Vec F S2000x384 .f32) (x1 : Vec F S384x384 .bf16) (x2 : Vec F S384 .f32) (x3 : Vec F S384x384 .bf16) (x4 : Vec F S384 .f32) (x5 : Vec F S384x128 .bf16) (x6 : Vec F S128 .f32) (x7 : Vec F S128 .f32) (x8 : Vec F S128 .f32) : Vec F S2000x128 .f32 :=
  View.canon [⟨r1_9, k1_pay1 (k1_pay2 (View.ld x0 r1_0) (View.ld x1 r1_1) (View.ld x2 r1_2) (View.ld x3 r1_3) (View.ld x4 r1_4) (View.ld x5 r1_5) (View.ld x6 r1_6)) (k1_pay3 (View.ld x0 r1_0) (View.ld x1 r1_1) (View.ld x2 r1_2) (View.ld x3 r1_3) (View.ld x4 r1_4) (View.ld x5 r1_5) (View.ld x6 r1_6)) (k1_pay4 (View.ld x0 r1_0) (View.ld x1 r1_1) (View.ld x2 r1_2) (View.ld x3 r1_3) (View.ld x4 r1_4) (View.ld x5 r1_5) (View.ld x6 r1_6)) (View.ld x7 r1_7) (View.ld x8 r1_8)⟩]

/-- The one store covers the block. -/
theorem cover1_9 (p0 : Vec F S2000x128 .f32) (y : S2000x128.Idx) :
    ∃ pc ∈ ([⟨r1_9, p0⟩] : List (View.Piece (Elt F) S2000x128 .f32)), y ∈ pc.1.set :=
  View.cover_of_tiled [⟨r1_9, p0⟩] S2000x128.size (by rfl) y

set_option maxHeartbeats 2000000 in
/-- One run of the body: from the nine input blocks in its staging buffers and anything in the output's, it ends with
    the inputs as they were and the output at `out1_9` of them. -/
theorem sound_kernel1 (c : Dev nD) (E : Set ℕ) (i : grid1.Coords) (arg1 : Memref sig .tc .vmem S2000x384 .f32) (harg1 : arg1.IsWhole) (arg2 : Memref sig .tc .vmem S384x384 .bf16) (harg2 : arg2.IsWhole) (arg3 : Memref sig .tc .vmem S384 .f32) (harg3 : arg3.IsWhole) (arg4 : Memref sig .tc .vmem S384x384 .bf16) (harg4 : arg4.IsWhole) (arg5 : Memref sig .tc .vmem S384 .f32) (harg5 : arg5.IsWhole) (arg6 : Memref sig .tc .vmem S384x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S2000x128 .f32) (harg10 : arg10.IsWhole)
    (x0 : Vec F S2000x384 .f32) (x1 : Vec F S384x384 .bf16) (x2 : Vec F S384 .f32) (x3 : Vec F S384x384 .bf16) (x4 : Vec F S384 .f32) (x5 : Vec F S384x128 .bf16) (x6 : Vec F S128 .f32) (x7 : Vec F S128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__trunk_kernel i arg1 harg1 arg2 harg2 arg3 harg3 arg4 harg4 arg5 harg5 arg6 harg6 arg7 harg7 arg8 harg8 arg9 harg9 arg10 harg10) K := by
  simp only [cc1__trunk_kernel_eq_skeleton]; unfold cc1__trunk_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The call's proof data on core `c`: the arrays as found at entry; after the body at point `t` each input's buffer
    at its block and the output's at `out1_9` of the nine blocks; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the run above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's per-point obligation. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program as three segments — the node-linear call, the host operations that gather the two end nodes'
  rows for every edge and join them to the edge's own features, the trunk call — and what every buffer holds at the end.

  The buffers' contents are followed boundary by boundary: `W0` at launch; `W2` after the first call (its output array at
  what the call's write-backs leave, everything else as before); `W3` after the host operations; `W4` after the second
  call. The run theorem says every weakly fair execution ends, faulting nowhere, with every unscoped buffer at `W4`.
  The argument arrays are never written, so `W4` at an argument is the launch memory: that is the frame.
-/
import proofs.«128243_j10479720203131_1_alg».proof.Proof.BitsNode
import proofs.«128243_j10479720203131_1_alg».proof.Proof.BitsTrunk
import proofs.«128243_j10479720203131_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the core's references: what the first call is entered with. -/
abbrev V1 : (c : Dev nD) → (b : Ref sig .tc) → Buf (Elt F) ((c : Thread nD τ).loc b) := fun c b => W0 m ρ c b
/-- After the first call: its arrays at what its write-backs leave, every other buffer as before. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the two calls. -/
abbrev W3 : Dev nD → Valuation τ sig (Elt F) := fun c => StableHlo.after hostOps1 (W2 m ρ c)
/-- The same read at the core's references: what the second call is entered with. -/
abbrev V3 : (c : Dev nD) → (b : Ref sig .tc) → Buf (Elt F) ((c : Thread nD τ).loc b) := fun c b => W3 m ρ c b
/-- A buffer none of the host operations writes is as before them. -/
theorem W3_of (c : Dev nD) (r : Ref sig .tc) (h : r ∉ hostOps1_W) : W3 m ρ c r = W2 m ρ c r :=
  StableHlo.after_of_writes_sub hostOps1 _ hostOps1_writes h
/-- After the second call: its arrays at what its write-backs leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment writes an argument: a call reads it through an input window or does not touch it, and no host
    operation's result is an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W0 m ρ c (Proc.devRef .tc main_arg1) := W2_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W0 m ρ c (Proc.devRef .tc main_arg2) := W2_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W0 m ρ c (Proc.devRef .tc main_arg3) := (W2_arr m ρ c 1).trans (((dat0 (V1 m ρ) c).arrAt_in 1 rfl _).trans (A_eq0 (V1 m ρ) c 1))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W0 m ρ c (Proc.devRef .tc main_arg4) := (W2_arr m ρ c 2).trans (((dat0 (V1 m ρ) c).arrAt_in 2 rfl _).trans (A_eq0 (V1 m ρ) c 2))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W0 m ρ c (Proc.devRef .tc main_arg5) := W2_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := W3_of m ρ c main_arg6 (by decide)
    _ = W0 m ρ c (Proc.devRef .tc main_arg6) := W2_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W0 m ρ c (Proc.devRef .tc main_arg7) := W2_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((dat1 (V3 m ρ) c).arrAt_in 4 rfl _).trans (A_eq1 (V3 m ρ) c 4))
    _ = W2 m ρ c (Proc.devRef .tc main_arg8) := W3_of m ρ c main_arg8 (by decide)
    _ = W0 m ρ c (Proc.devRef .tc main_arg8) := W2_of_ne m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W0 m ρ c (Proc.devRef .tc main_arg9) := W2_of_ne m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 6).trans (((dat1 (V3 m ρ) c).arrAt_in 6 rfl _).trans (A_eq1 (V3 m ρ) c 6))
    _ = W2 m ρ c (Proc.devRef .tc main_arg10) := W3_of m ρ c main_arg10 (by decide)
    _ = W0 m ρ c (Proc.devRef .tc main_arg10) := W2_of_ne m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 7).trans (((dat1 (V3 m ρ) c).arrAt_in 7 rfl _).trans (A_eq1 (V3 m ρ) c 7))
    _ = W2 m ρ c (Proc.devRef .tc main_arg11) := W3_of m ρ c main_arg11 (by decide)
    _ = W0 m ρ c (Proc.devRef .tc main_arg11) := W2_of_ne m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 8).trans (((dat1 (V3 m ρ) c).arrAt_in 8 rfl _).trans (A_eq1 (V3 m ρ) c 8))
    _ = W2 m ρ c (Proc.devRef .tc main_arg12) := W3_of m ρ c main_arg12 (by decide)
    _ = W0 m ρ c (Proc.devRef .tc main_arg12) := W2_of_ne m ρ c main_arg12 (by decide)
    _ = m ((c : Thread nD τ).loc main_arg12) := rfl

/-! ## The proof data, the thread state and the segments -/

abbrev adm : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Call 0 as a segment: entered with every unscoped buffer at `W0`, left with them at `W2`. Its arrays are
    split out of the unscoped buffers at entry and put back, at what the write-backs leave, at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are
    split out of the unscoped buffers at entry and put back, at what the write-backs leave, at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, faulting nowhere, and ends
    with every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_all m ρ)

end Cert.Kernel.Hand

end
-- ==== Proof.IdealNode.lean ====
/-
  The node-linear call, read at whatever the buffers hold when it is entered.

  One grid point takes rows 2000·t … 2000·t+1999 of the node table (a 2000 × 256 block), the whole 256 × 128 weight
  matrix and the whole bias row, and leaves in its 2000 × 128 output block the product plus the bias spread over the
  rows. Everything here is stated for ANY contents `V` of the buffers at entry: what each window's block is, what the
  body stores, that one run of the body from the blocks ends with the output block at that value and the inputs
  untouched, and the per-point obligation the launch asks for.
-/
import proofs.«128243_j10479720203131_1_alg».proof.Proof.Gen.KernelIdeal.Launch
import proofs.«128243_j10479720203131_1_alg».proof.Proof.Gen.KernelIdeal.Skeleton
import proofs.«128243_j10479720203131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array (as found at entry) that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole block -/

abbrev r0_0 : Rect S2000x256 := Rect.unit (s := S2000x256) ![0, 0] S2000x256.size inb_S2000x256_S2000x256_0_0
abbrev r0_1 : Rect S256x128 := Rect.unit (s := S256x128) ![0, 0] S256x128.size inb_S256x128_S256x128_0_0
abbrev r0_2 : Rect S128 := Rect.unit (s := S128) ![0] S128.size inb_S128_S128_0
abbrev r0_3 : Rect S2000x128 := Rect.unit (s := S2000x128) ![0, 0] S2000x128.size inb_S2000x128_S2000x128_0_0

/-- What the body leaves in the output block: its one store, of the product-plus-bias of the three input blocks. -/
def out0_3 (x0 : Vec F S2000x256 .f32) (x1 : Vec F S256x128 .f32) (x2 : Vec F S128 .f32) : Vec F S2000x128 .f32 :=
  View.canon [⟨r0_3, k0_pay1 (View.ld x0 r0_0) (View.ld x1 r0_1) (View.ld x2 r0_2)⟩]

/-- The one store covers the block. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 1000000 in
/-- One run of the body: from the three input blocks in its staging buffers and anything in the output's, it ends with
    the inputs as they were and the output at `out0_3` of them. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S2000x128 .f32) (harg4 : arg4.IsWhole)
    (x0 : Vec F S2000x256 .f32) (x1 : Vec F S256x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__node_linear_kernel i arg1 harg1 arg2 harg2 arg3 harg3 arg4 harg4) K := by
  simp only [cc0__node_linear_kernel_eq_skeleton]; unfold cc0__node_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The call's proof data on core `c`: the arrays as found at entry; after the body at point `t` each input's buffer
    at its block and the output's at `out0_3` of the three blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the run above applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's per-point obligation. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealTrunk.lean ====
/-
  The trunk call, read at whatever the buffers hold when it is entered.

  One grid point takes rows 2000·t … 2000·t+1999 of the edge features (a 2000 × 384 block) and, whole, the three weight
  matrices and the five vectors (three biases, the scale and the shift of the normalisation). Row by row it applies two
  affine maps each followed by max(·, 0), adds the input row back, applies the third affine map to 128 columns, and
  normalises the 128 entries of the row: subtracts their mean, multiplies by the reciprocal square root of the mean of
  the squared deviations plus a small constant, scales and shifts. The 2000 × 128 result is the point's output block.
  Everything is stated for ANY contents `V` of the buffers at entry.
-/
import proofs.«128243_j10479720203131_1_alg».proof.Proof.Gen.KernelIdeal.Launch
import proofs.«128243_j10479720203131_1_alg».proof.Proof.Gen.KernelIdeal.Skeleton
import proofs.«128243_j10479720203131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array (as found at entry) that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether the point fetched it or the block index
    stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether the point fetched it or the block index
    stood still since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, whether the point fetched it or the block index
    stood still since the last fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, whether the point fetched it or the block index
    stood still since the last fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, whether the point fetched it or the block index
    stood still since the last fetch. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is its whole block -/

abbrev r1_0 : Rect S2000x384 := Rect.unit (s := S2000x384) ![0, 0] S2000x384.size inb_S2000x384_S2000x384_0_0
abbrev r1_1 : Rect S384x384 := Rect.unit (s := S384x384) ![0, 0] S384x384.size inb_S384x384_S384x384_0_0
abbrev r1_2 : Rect S384 := Rect.unit (s := S384) ![0] S384.size inb_S384_S384_0
abbrev r1_3 : Rect S384x384 := Rect.unit (s := S384x384) ![0, 0] S384x384.size inb_S384x384_S384x384_0_0
abbrev r1_4 : Rect S384 := Rect.unit (s := S384) ![0] S384.size inb_S384_S384_0
abbrev r1_5 : Rect S384x128 := Rect.unit (s := S384x128) ![0, 0] S384x128.size inb_S384x128_S384x128_0_0
abbrev r1_6 : Rect S128 := Rect.unit (s := S128) ![0] S128.size inb_S128_S128_0
abbrev r1_7 : Rect S128 := Rect.unit (s := S128) ![0] S128.size inb_S128_S128_0
abbrev r1_8 : Rect S128 := Rect.unit (s := S128) ![0] S128.size inb_S128_S128_0
abbrev r1_9 : Rect S2000x128 := Rect.unit (s := S2000x128) ![0, 0] S2000x128.size inb_S2000x128_S2000x128_0_0

/-- What the body leaves in the output block: its one store, the normalised rows computed from the nine input blocks. -/
def out1_9 (x0 : Vec F S2000x384 .f32) (x1 : Vec F S384x384 .bf16) (x2 : Vec F S384 .f32) (x3 : Vec F S384x384 .bf16) (x4 : Vec F S384 .f32) (x5 : Vec F S384x128 .bf16) (x6 : Vec F S128 .f32) (x7 : Vec F S128 .f32) (x8 : Vec F S128 .f32) : Vec F S2000x128 .f32 :=
  View.canon [⟨r1_9, k1_pay1 (k1_pay2 (View.ld x0 r1_0) (View.ld x1 r1_1) (View.ld x2 r1_2) (View.ld x3 r1_3) (View.ld x4 r1_4) (View.ld x5 r1_5) (View.ld x6 r1_6)) (k1_pay3 (View.ld x0 r1_0) (View.ld x1 r1_1) (View.ld x2 r1_2) (View.ld x3 r1_3) (View.ld x4 r1_4) (View.ld x5 r1_5) (View.ld x6 r1_6)) (k1_pay4 (View.ld x0 r1_0) (View.ld x1 r1_1) (View.ld x2 r1_2) (View.ld x3 r1_3) (View.ld x4 r1_4) (View.ld x5 r1_5) (View.ld x6 r1_6)) (View.ld x7 r1_7) (View.ld x8 r1_8)⟩]

/-- The one store covers the block. -/
theorem cover1_9 (p0 : Vec F S2000x128 .f32) (y : S2000x128.Idx) :
    ∃ pc ∈ ([⟨r1_9, p0⟩] : List (View.Piece (Elt F) S2000x128 .f32)), y ∈ pc.1.set :=
  View.cover_of_tiled [⟨r1_9, p0⟩] S2000x128.size (by rfl) y

set_option maxHeartbeats 2000000 in
/-- One run of the body: from the nine input blocks in its staging buffers and anything in the output's, it ends with
    the inputs as they were and the output at `out1_9` of them. -/
theorem sound_kernel1 (c : Dev nD) (E : Set ℕ) (i : grid1.Coords) (arg1 : Memref sig .tc .vmem S2000x384 .f32) (harg1 : arg1.IsWhole) (arg2 : Memref sig .tc .vmem S384x384 .bf16) (harg2 : arg2.IsWhole) (arg3 : Memref sig .tc .vmem S384 .f32) (harg3 : arg3.IsWhole) (arg4 : Memref sig .tc .vmem S384x384 .bf16) (harg4 : arg4.IsWhole) (arg5 : Memref sig .tc .vmem S384 .f32) (harg5 : arg5.IsWhole) (arg6 : Memref sig .tc .vmem S384x128 .bf16) (harg6 : arg6.IsWhole) (arg7 : Memref sig .tc .vmem S128 .f32) (harg7 : arg7.IsWhole) (arg8 : Memref sig .tc .vmem S128 .f32) (harg8 : arg8.IsWhole) (arg9 : Memref sig .tc .vmem S128 .f32) (harg9 : arg9.IsWhole) (arg10 : Memref sig .tc .vmem S2000x128 .f32) (harg10 : arg10.IsWhole)
    (x0 : Vec F S2000x384 .f32) (x1 : Vec F S384x384 .bf16) (x2 : Vec F S384 .f32) (x3 : Vec F S384x384 .bf16) (x4 : Vec F S384 .f32) (x5 : Vec F S384x128 .bf16) (x6 : Vec F S128 .f32) (x7 : Vec F S128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__trunk_kernel i arg1 harg1 arg2 harg2 arg3 harg3 arg4 harg4 arg5 harg5 arg6 harg6 arg7 harg7 arg8 harg8 arg9 harg9 arg10 harg10) K := by
  simp only [cc1__trunk_kernel_eq_skeleton]; unfold cc1__trunk_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The call's proof data on core `c`: the arrays as found at entry; after the body at point `t` each input's buffer
    at its block and the output's at `out1_9` of the nine blocks; nothing else touched, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the run above applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's per-point obligation. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program as three segments — the node-linear call, the host operations that gather the two end nodes'
  rows for every edge and join them to the edge's own features, the trunk call — and what every buffer holds at the end.

  The buffers' contents are followed boundary by boundary: `W0` at launch; `W2` after the first call (its output array at
  what the call's write-backs leave, everything else as before); `W3` after the host operations; `W4` after the second
  call. The run theorem says every weakly fair execution ends, faulting nowhere, with every unscoped buffer at `W4`.
  The argument arrays are never written, so `W4` at an argument is the launch memory: that is the frame.
-/
import proofs.«128243_j10479720203131_1_alg».proof.Proof.IdealNode
import proofs.«128243_j10479720203131_1_alg».proof.Proof.IdealTrunk
import proofs.«128243_j10479720203131_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the core's references: what the first call is entered with. -/
abbrev V1 : (c : Dev nD) → (b : Ref sig .tc) → Buf (Elt F) ((c : Thread nD τ).loc b) := fun c b => W0 m ρ c b
/-- After the first call: its arrays at what its write-backs leave, every other buffer as before. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the two calls. -/
abbrev W3 : Dev nD → Valuation τ sig (Elt F) := fun c => StableHlo.after hostOps1 (W2 m ρ c)
/-- The same read at the core's references: what the second call is entered with. -/
abbrev V3 : (c : Dev nD) → (b : Ref sig .tc) → Buf (Elt F) ((c : Thread nD τ).loc b) := fun c b => W3 m ρ c b
/-- A buffer none of the host operations writes is as before them. -/
theorem W3_of (c : Dev nD) (r : Ref sig .tc) (h : r ∉ hostOps1_W) : W3 m ρ c r = W2 m ρ c r :=
  StableHlo.after_of_writes_sub hostOps1 _ hostOps1_writes h
/-- After the second call: its arrays at what its write-backs leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No segment writes an argument: a call reads it through an input window or does not touch it, and no host
    operation's result is an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W0 m ρ c (Proc.devRef .tc main_arg1) := W2_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W0 m ρ c (Proc.devRef .tc main_arg2) := W2_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W0 m ρ c (Proc.devRef .tc main_arg3) := (W2_arr m ρ c 1).trans (((dat0 (V1 m ρ) c).arrAt_in 1 rfl _).trans (A_eq0 (V1 m ρ) c 1))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W0 m ρ c (Proc.devRef .tc main_arg4) := (W2_arr m ρ c 2).trans (((dat0 (V1 m ρ) c).arrAt_in 2 rfl _).trans (A_eq0 (V1 m ρ) c 2))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W0 m ρ c (Proc.devRef .tc main_arg5) := W2_of_ne m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := W3_of m ρ c main_arg6 (by decide)
    _ = W0 m ρ c (Proc.devRef .tc main_arg6) := W2_of_ne m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W0 m ρ c (Proc.devRef .tc main_arg7) := W2_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((dat1 (V3 m ρ) c).arrAt_in 4 rfl _).trans (A_eq1 (V3 m ρ) c 4))
    _ = W2 m ρ c (Proc.devRef .tc main_arg8) := W3_of m ρ c main_arg8 (by decide)
    _ = W0 m ρ c (Proc.devRef .tc main_arg8) := W2_of_ne m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W0 m ρ c (Proc.devRef .tc main_arg9) := W2_of_ne m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 6).trans (((dat1 (V3 m ρ) c).arrAt_in 6 rfl _).trans (A_eq1 (V3 m ρ) c 6))
    _ = W2 m ρ c (Proc.devRef .tc main_arg10) := W3_of m ρ c main_arg10 (by decide)
    _ = W0 m ρ c (Proc.devRef .tc main_arg10) := W2_of_ne m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 7).trans (((dat1 (V3 m ρ) c).arrAt_in 7 rfl _).trans (A_eq1 (V3 m ρ) c 7))
    _ = W2 m ρ c (Proc.devRef .tc main_arg11) := W3_of m ρ c main_arg11 (by decide)
    _ = W0 m ρ c (Proc.devRef .tc main_arg11) := W2_of_ne m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 8).trans (((dat1 (V3 m ρ) c).arrAt_in 8 rfl _).trans (A_eq1 (V3 m ρ) c 8))
    _ = W2 m ρ c (Proc.devRef .tc main_arg12) := W3_of m ρ c main_arg12 (by decide)
    _ = W0 m ρ c (Proc.devRef .tc main_arg12) := W2_of_ne m ρ c main_arg12 (by decide)
    _ = m ((c : Thread nD τ).loc main_arg12) := rfl

/-! ## The proof data, the thread state and the segments -/

abbrev adm : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the core's random-number register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- Call 0 as a segment: entered with every unscoped buffer at `W0`, left with them at `W2`. Its arrays are
    split out of the unscoped buffers at entry and put back, at what the write-backs leave, at exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are
    split out of the unscoped buffers at entry and put back, at what the write-backs leave, at exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, faulting nowhere, and ends
    with every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_all m ρ)

end Cert.KernelIdeal.Hand

end
-- ==== Proof.IdealHost.lean ====
/-
  What the second call finds in its arrays: the host operations between the two calls, read off the buffers they
  start from.

  The edge feature matrix is a join of three 128-column pieces: the edge's own features, the node-table row of its first
  end node and the node-table row of its second (an end node's number below zero is first counted from the table's end).
  The three weight matrices are the arguments narrowed to half precision, which on the extended reals changes nothing.
  The five parameter vectors are arguments, untouched.
-/
import proofs.«128243_j10479720203131_1_alg».proof.Proof.IdealRun
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.StableHlo
open Idealize.SL Idealize.SL.Sem

variable {F : FTy → Type} [FloatOps F]

/-- The edge feature matrix from a node table `nh`, the edges' own features `ee` and the two rows of end-node numbers. -/
def hcat (nh : (⟨S10000x128, .f32⟩ : BufTy).Contents (Elt F)) (ee : (⟨S200000x128, .f32⟩ : BufTy).Contents (Elt F))
    (idx : (⟨S2x200000, .i32⟩ : BufTy).Contents (Elt F)) : (⟨S200000x384, .f32⟩ : BufTy).Contents (Elt F) :=
  concatenate S200000x384 1 [⟨S200000x128, ee⟩, ⟨S200000x128, (Host.gather gather_S10000x128_S200000x1_S200000x128_1_0_n_n_0_1_1128 nh (broadcastInDim S200000x1 ![0] bcast_S200000_S200000x1_0 (select (cmpi .slt (shapeCast _ (extractStridedSlice S1x200000 ![0, 0] idx slices_S2x200000_S1x200000_0_0) shapeCasts_S1x200000_S200000) (broadcastInDim S200000 ![] bcast_S_S200000 (constantI S_ 32 0#32))) (addi (shapeCast _ (extractStridedSlice S1x200000 ![0, 0] idx slices_S2x200000_S1x200000_0_0) shapeCasts_S1x200000_S200000) (broadcastInDim S200000 ![] bcast_S_S200000 (constantI S_ 32 10000#32))) (shapeCast _ (extractStridedSlice S1x200000 ![0, 0] idx slices_S2x200000_S1x200000_0_0) shapeCasts_S1x200000_S200000))))⟩, ⟨S200000x128, (Host.gather gather_S10000x128_S200000x1_S200000x128_1_0_n_n_0_1_1128 nh (broadcastInDim S200000x1 ![0] bcast_S200000_S200000x1_0 (select (cmpi .slt (shapeCast _ (extractStridedSlice S1x200000 ![1, 0] idx slices_S2x200000_S1x200000_1_0) shapeCasts_S1x200000_S200000) (broadcastInDim S200000 ![] bcast_S_S200000 (constantI S_ 32 0#32))) (addi (shapeCast _ (extractStridedSlice S1x200000 ![1, 0] idx slices_S2x200000_S1x200000_1_0) shapeCasts_S1x200000_S200000) (broadcastInDim S200000 ![] bcast_S_S200000 (constantI S_ 32 10000#32))) (shapeCast _ (extractStridedSlice S1x200000 ![1, 0] idx slices_S2x200000_S1x200000_1_0) shapeCasts_S1x200000_S200000))))⟩] concatenates_S200000x128_S200000x128_S200000x128_S200000x384_d1

variable (m : (ℓ : Loc nD τ sig) → Buf (Elt F) ℓ) (ρ : Dev nD → PrngReg)

/-- The edge feature matrix the second call reads. -/
theorem V3_main_v19 (c : Dev nD) : V3 m ρ c main_v19
    = hcat (W2 m ρ c (Proc.devRef .tc main_v0)) (W2 m ρ c (Proc.devRef .tc main_arg1)) (W2 m ρ c (Proc.devRef .tc main_arg2)) := by
  show StableHlo.after hostOps1 (W2 m ρ c) (Proc.devRef .tc main_v19) = _
  unfold hcat
  after_results; rfl

/-- The three weight matrices the second call reads: the arguments narrowed to half precision. -/
theorem V3_main_v20 (c : Dev nD) : V3 m ρ c main_v20 = truncf .bf16 (W2 m ρ c (Proc.devRef .tc main_arg5)) bitsLt_bf16_f32 := by
  show StableHlo.after hostOps1 (W2 m ρ c) (Proc.devRef .tc main_v20) = _
  after_results
theorem V3_main_v21 (c : Dev nD) : V3 m ρ c main_v21 = truncf .bf16 (W2 m ρ c (Proc.devRef .tc main_arg7)) bitsLt_bf16_f32 := by
  show StableHlo.after hostOps1 (W2 m ρ c) (Proc.devRef .tc main_v21) = _
  after_results
theorem V3_main_v22 (c : Dev nD) : V3 m ρ c main_v22 = truncf .bf16 (W2 m ρ c (Proc.devRef .tc main_arg9)) bitsLt_bf16_f32 := by
  show StableHlo.after hostOps1 (W2 m ρ c) (Proc.devRef .tc main_v22) = _
  after_results

/-- An argument the first call does not write is, after it, as launched. -/
theorem W2_arg (c : Dev nD) (b : Ref sig .tc) (hb : ∀ w, Pipeline.arrRef spec0 w ≠ b) :
    W2 m ρ c (Proc.devRef .tc b) = m ((c : Thread nD τ).loc b) :=
  W2_of_ne m ρ c b hb

/-- A buffer the host operations do not write is, when the second call is entered, as launched. -/
theorem V3_arg (c : Dev nD) (b : Ref sig .tc) (h3 : b ∉ hostOps1_W) (hb : ∀ w, Pipeline.arrRef spec0 w ≠ b) :
    V3 m ρ c b = m ((c : Thread nD τ).loc b) :=
  (W3_of m ρ c b h3).trans (W2_of_ne m ρ c b hb)

end Cert.KernelIdeal.Val

end
-- ==== Proof.Spec.lean ====
/-
  The two row functions both programs compute, on the extended reals.

  `affine x w b` is one row times a matrix plus a bias row: entry `j` is `∑ k, x k · w k j + b j`.
  `trunkRow` is what one edge's 384 features go through: two affine maps each followed by `max · 0`, the input row
  added back, a third affine map to 128 entries `o`, and the normalisation of `o`: with `mu = (∑ o) / 128` and
  `var = (∑ (o − mu)²) / 128`, entry `q` is `(o q − mu) · rsqrt (var + ε) · g q + be q`. The division and the reciprocal
  square root are the extended reals' total ones; `128` and `ε` are the values their single-precision words denote.
-/
import Idealize.ShloMosaic.PureOps.Ideal

noncomputable section

open scoped BigOperators

namespace Cert.Spec

open Idealize.ShloMosaic

/-- The divisor of both means: the value of the word `0x43000000`, that is 128. -/
def c128 : EReal := Ideal.ofBits .f32 0x43000000#32
/-- The constant added under the reciprocal square root: the value of the word `0x3727C5AC`. -/
def ceps : EReal := Ideal.ofBits .f32 0x3727C5AC#32

/-- A row times a matrix, plus a bias row. -/
def affine {K M : ℕ} (x : Fin K → EReal) (w : Fin K → Fin M → EReal) (b : Fin M → EReal) (j : Fin M) : EReal :=
  (∑ k : Fin K, x k * w k j) + b j

/-- The third affine map's output row, before the normalisation. -/
def preNorm (h : Fin 384 → EReal) (w1 : Fin 384 → Fin 384 → EReal) (b1 : Fin 384 → EReal)
    (w2 : Fin 384 → Fin 384 → EReal) (b2 : Fin 384 → EReal) (wf : Fin 384 → Fin 128 → EReal) (bf : Fin 128 → EReal)
    (j : Fin 128) : EReal :=
  affine (fun k => max (affine (fun c => max (affine h w1 b1 c) 0) w2 b2 k) 0 + h k) wf bf j

/-- The mean of a row of 128 entries. -/
def mean128 (o : Fin 128 → EReal) : EReal := Ideal.div (∑ j : Fin 128, o j) c128

/-- A row of 128 entries normalised, scaled and shifted. -/
def layerNorm (o g be : Fin 128 → EReal) (q : Fin 128) : EReal :=
  (o q - mean128 o) * Ideal.rsqrt (mean128 (fun j => (o j - mean128 o) * (o j - mean128 o)) + ceps) * g q + be q

/-- One edge's output row from its feature row and the parameters. -/
def trunkRow (h : Fin 384 → EReal) (w1 : Fin 384 → Fin 384 → EReal) (b1 : Fin 384 → EReal)
    (w2 : Fin 384 → Fin 384 → EReal) (b2 : Fin 384 → EReal) (wf : Fin 384 → Fin 128 → EReal) (bf g be : Fin 128 → EReal)
    (q : Fin 128) : EReal :=
  layerNorm (preNorm h w1 b1 w2 b2 wf bf) g be q

end Cert.Spec

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.KernelLayers.lean ====
/-
  The kernel's affine layers read at an entry, on the extended reals.

  For each of the three dimension records the kernel's products use (a plain `[2000, K] × [K, M] → [2000, M]` product: the left
  factor's columns contracted against the right factor's rows, no batch axis) the four coordinate facts that say so, and from
  them: the product into a zero accumulator at the entry `(p, j)` is `∑ k, l (p, k) · r (k, j)`. A bias vector turned into a
  one-row matrix and repeated over the rows reads, at `(p, j)`, its entry `j`; so a product plus the repeated bias is
  `Spec.affine` of row `p`. The maximum with the repeated zero word is `max · 0`. `affine` respects pointwise equality of its
  three arguments.
-/
import proofs.«128243_j10479720203131_1_alg».proof.Proof.Gen.KernelIdeal.Skeleton
import proofs.«128243_j10479720203131_1_alg».proof.Proof.Spec
import proofs.«128243_j10479720203131_1_alg».proof.Proof.LibDotSum
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Spec

/-! ## The three dimension records are plain products -/

theorem node_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl
theorem node_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem node_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem node_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

theorem wide_lhs_0 (i : S2000x384.Idx) (q : dot_S2000x384_S384x384_S2000x384_1_0_0_1_n_n.contr.Idx) :
    (dot_S2000x384_S384x384_S2000x384_1_0_0_1_n_n.lhsIdx i q 0).val = (i 0).val := by
  unfold DotDims.lhsIdx
  rw [dif_neg (show ¬(0 : Fin S2000x384.rank) ∈ dot_S2000x384_S384x384_S2000x384_1_0_0_1_n_n.lhsBatch by decide),
    dif_pos (show (0 : Fin S2000x384.rank) ∈ dot_S2000x384_S384x384_S2000x384_1_0_0_1_n_n.lhsNonContracting by decide)]
  rfl
theorem wide_lhs_1 (i : S2000x384.Idx) (q : dot_S2000x384_S384x384_S2000x384_1_0_0_1_n_n.contr.Idx) :
    (dot_S2000x384_S384x384_S2000x384_1_0_0_1_n_n.lhsIdx i q 1).val = (q ⟨0, by decide⟩).val :=
  dot_S2000x384_S384x384_S2000x384_1_0_0_1_n_n.lhsIdx_val_of_single rfl i q
theorem wide_rhs_0 (i : S2000x384.Idx) (q : dot_S2000x384_S384x384_S2000x384_1_0_0_1_n_n.contr.Idx) :
    (dot_S2000x384_S384x384_S2000x384_1_0_0_1_n_n.rhsIdx i q 0).val = (q ⟨0, by decide⟩).val :=
  dot_S2000x384_S384x384_S2000x384_1_0_0_1_n_n.rhsIdx_val_of_single rfl i q
theorem wide_rhs_1 (i : S2000x384.Idx) (q : dot_S2000x384_S384x384_S2000x384_1_0_0_1_n_n.contr.Idx) :
    (dot_S2000x384_S384x384_S2000x384_1_0_0_1_n_n.rhsIdx i q 1).val = (i 1).val := by
  unfold DotDims.rhsIdx
  rw [dif_neg (show ¬(1 : Fin S384x384.rank) ∈ dot_S2000x384_S384x384_S2000x384_1_0_0_1_n_n.rhsBatch by decide),
    dif_pos (show (1 : Fin S384x384.rank) ∈ dot_S2000x384_S384x384_S2000x384_1_0_0_1_n_n.rhsNonContracting by decide)]
  rfl

theorem out_lhs_0 (i : S2000x128.Idx) (q : dot_S2000x384_S384x128_S2000x128_1_0_0_1_n_n.contr.Idx) :
    (dot_S2000x384_S384x128_S2000x128_1_0_0_1_n_n.lhsIdx i q 0).val = (i 0).val := by
  unfold DotDims.lhsIdx
  rw [dif_neg (show ¬(0 : Fin S2000x384.rank) ∈ dot_S2000x384_S384x128_S2000x128_1_0_0_1_n_n.lhsBatch by decide),
    dif_pos (show (0 : Fin S2000x384.rank) ∈ dot_S2000x384_S384x128_S2000x128_1_0_0_1_n_n.lhsNonContracting by decide)]
  rfl
theorem out_lhs_1 (i : S2000x128.Idx) (q : dot_S2000x384_S384x128_S2000x128_1_0_0_1_n_n.contr.Idx) :
    (dot_S2000x384_S384x128_S2000x128_1_0_0_1_n_n.lhsIdx i q 1).val = (q ⟨0, by decide⟩).val :=
  dot_S2000x384_S384x128_S2000x128_1_0_0_1_n_n.lhsIdx_val_of_single rfl i q
theorem out_rhs_0 (i : S2000x128.Idx) (q : dot_S2000x384_S384x128_S2000x128_1_0_0_1_n_n.contr.Idx) :
    (dot_S2000x384_S384x128_S2000x128_1_0_0_1_n_n.rhsIdx i q 0).val = (q ⟨0, by decide⟩).val :=
  dot_S2000x384_S384x128_S2000x128_1_0_0_1_n_n.rhsIdx_val_of_single rfl i q
theorem out_rhs_1 (i : S2000x128.Idx) (q : dot_S2000x384_S384x128_S2000x128_1_0_0_1_n_n.contr.Idx) :
    (dot_S2000x384_S384x128_S2000x128_1_0_0_1_n_n.rhsIdx i q 1).val = (i 1).val := by
  unfold DotDims.rhsIdx
  rw [dif_neg (show ¬(1 : Fin S384x128.rank) ∈ dot_S2000x384_S384x128_S2000x128_1_0_0_1_n_n.rhsBatch by decide),
    dif_pos (show (1 : Fin S384x128.rank) ∈ dot_S2000x384_S384x128_S2000x128_1_0_0_1_n_n.rhsNonContracting by decide)]
  rfl

/-! ## A product into the zero accumulator at an entry -/

/-- The product into the zero accumulator, read at `(p, j)`: the sum over the 256 contracted positions. -/
theorem node_matmul_entry (l : FVec Ideal S2000x256 .f32) (r : FVec Ideal S256x128 .f32) (p : Fin 2000) (j : Fin 128) :
    matmul dot_S2000x256_S256x128_S2000x128_1_0_0_1_n_n none l r (constant (F := Ideal) S2000x128 .f32 0x00000000#32) (ix2 p j)
      = ∑ k : Fin 256, l (ix2 p k) * r (ix2 k j) :=
  (Ideal.matmul_constant_zero_apply dot_S2000x256_S256x128_S2000x128_1_0_0_1_n_n none l r (ix2 p j)).trans
    (Cert.DotSum.contr_sum (A := 2000) (K := 256) (M := 128) dot_S2000x256_S256x128_S2000x128_1_0_0_1_n_n rfl rfl
      node_lhs_0 node_lhs_1 node_rhs_0 node_rhs_1 l r p j)

/-- The product into the zero accumulator, read at `(p, j)`: the sum over the 384 contracted positions. -/
theorem wide_matmul_entry (l : FVec Ideal S2000x384 .bf16) (r : FVec Ideal S384x384 .bf16) (p : Fin 2000) (j : Fin 384) :
    matmul dot_S2000x384_S384x384_S2000x384_1_0_0_1_n_n none l r (constant (F := Ideal) S2000x384 .f32 0x00000000#32) (ix2 p j)
      = ∑ k : Fin 384, l (ix2 p k) * r (ix2 k j) :=
  (Ideal.matmul_constant_zero_apply dot_S2000x384_S384x384_S2000x384_1_0_0_1_n_n none l r (ix2 p j)).trans
    (Cert.DotSum.contr_sum (A := 2000) (K := 384) (M := 384) dot_S2000x384_S384x384_S2000x384_1_0_0_1_n_n rfl rfl
      wide_lhs_0 wide_lhs_1 wide_rhs_0 wide_rhs_1 l r p j)

/-- The product into the zero accumulator, read at `(p, j)`: the sum over the 384 contracted positions. -/
theorem out_matmul_entry (l : FVec Ideal S2000x384 .bf16) (r : FVec Ideal S384x128 .bf16) (p : Fin 2000) (j : Fin 128) :
    matmul dot_S2000x384_S384x128_S2000x128_1_0_0_1_n_n none l r (constant (F := Ideal) S2000x128 .f32 0x00000000#32) (ix2 p j)
      = ∑ k : Fin 384, l (ix2 p k) * r (ix2 k j) :=
  (Ideal.matmul_constant_zero_apply dot_S2000x384_S384x128_S2000x128_1_0_0_1_n_n none l r (ix2 p j)).trans
    (Cert.DotSum.contr_sum (A := 2000) (K := 384) (M := 128) dot_S2000x384_S384x128_S2000x128_1_0_0_1_n_n rfl rfl
      out_lhs_0 out_lhs_1 out_rhs_0 out_rhs_1 l r p j)

/-! ## The bias row, the zero floor, and `affine` -/

/-- A vector of length `b` turned into a one-row matrix and repeated over `a` rows: entry `(p, c)` is entry `c`. -/
theorem spread_row {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The maximum with the repeated zero word is the maximum with `0`. -/
theorem relu_entry {s : Shape} (v : FVec Ideal s .f32) (i : s.Idx) :
    maximumf v (broadcast s (Scalar.ofBits (F := Ideal) .f32 0x00000000#32)) i = max (v i) 0 :=
  congrArg (max (v i)) Ideal.ofBits_zero_f32

/-- `affine` of pointwise equal rows, matrices and biases. -/
theorem affine_congr {K M : ℕ} {x x' : Fin K → EReal} {w w' : Fin K → Fin M → EReal} {b b' : Fin M → EReal}
    (hx : ∀ k, x k = x' k) (hw : ∀ k j, w k j = w' k j) (hb : ∀ j, b j = b' j) (j : Fin M) :
    affine x w b j = affine x' w' b' j := by
  rw [show x = x' from funext hx, show w = w' from funext fun k => funext (hw k), show b = b' from funext hb]

/-! ## A product plus the repeated bias is `affine` of the row -/

/-- One affine layer of the kernel — the product into the zero accumulator plus the bias row repeated over the rows — read at
    `(p, j)`: the row `p` of the left factor through `affine`. -/
theorem node_layer_entry (l : FVec Ideal S2000x256 .f32) (w : FVec Ideal S256x128 .f32) (b : FVec Ideal S128 .f32) (p : Fin 2000) (j : Fin 128) :
    addf (matmul dot_S2000x256_S256x128_S2000x128_1_0_0_1_n_n none l w (constant (F := Ideal) S2000x128 .f32 0x00000000#32))
        (broadcastTo S2000x128 (shapeCast S1x128 b shapeCasts_S128_S1x128) broadcasts_S1x128_S2000x128) (ix2 p j)
      = affine (fun k : Fin 256 => l (ix2 p k)) (fun (k : Fin 256) (j : Fin 128) => w (ix2 k j)) (fun j : Fin 128 => b (ix1 j)) j :=
  congrArg₂ (· + ·) (node_matmul_entry l w p j) (spread_row b shapeCasts_S128_S1x128 broadcasts_S1x128_S2000x128 p j)

/-- One affine layer of the kernel — the product into the zero accumulator plus the bias row repeated over the rows — read at
    `(p, j)`: the row `p` of the left factor through `affine`. -/
theorem wide_layer_entry (l : FVec Ideal S2000x384 .bf16) (w : FVec Ideal S384x384 .bf16) (b : FVec Ideal S384 .f32) (p : Fin 2000) (j : Fin 384) :
    addf (matmul dot_S2000x384_S384x384_S2000x384_1_0_0_1_n_n none l w (constant (F := Ideal) S2000x384 .f32 0x00000000#32))
        (broadcastTo S2000x384 (shapeCast S1x384 b shapeCasts_S384_S1x384) broadcasts_S1x384_S2000x384) (ix2 p j)
      = affine (fun k : Fin 384 => l (ix2 p k)) (fun (k : Fin 384) (j : Fin 384) => w (ix2 k j)) (fun j : Fin 384 => b (ix1 j)) j :=
  congrArg₂ (· + ·) (wide_matmul_entry l w p j) (spread_row b shapeCasts_S384_S1x384 broadcasts_S1x384_S2000x384 p j)

/-- One affine layer of the kernel — the product into the zero accumulator plus the bias row repeated over the rows — read at
    `(p, j)`: the row `p` of the left factor through `affine`. -/
theorem out_layer_entry (l : FVec Ideal S2000x384 .bf16) (w : FVec Ideal S384x128 .bf16) (b : FVec Ideal S128 .f32) (p : Fin 2000) (j : Fin 128) :
    addf (matmul dot_S2000x384_S384x128_S2000x128_1_0_0_1_n_n none l w (constant (F := Ideal) S2000x128 .f32 0x00000000#32))
        (broadcastTo S2000x128 (shapeCast S1x128 b shapeCasts_S128_S1x128) broadcasts_S1x128_S2000x128) (ix2 p j)
      = affine (fun k : Fin 384 => l (ix2 p k)) (fun (k : Fin 384) (j : Fin 128) => w (ix2 k j)) (fun j : Fin 128 => b (ix1 j)) j :=
  congrArg₂ (· + ·) (out_matmul_entry l w p j) (spread_row b shapeCasts_S128_S1x128 broadcasts_S1x128_S2000x128 p j)

end Cert.KernelIdeal.Payload

end
-- ==== Proof.NodePayload.lean ====
/-
  The node kernel's stored block read at an entry, on the extended reals.

  The block is a product of the 2000 × 256 input block with the 256 × 128 weights, accumulated into zero, plus the bias
  vector repeated over the rows. Entry `(p, j)` is therefore `∑ k, x (p, k) · w (k, j) + b j`: `Spec.affine` of row `p`.
-/
import proofs.«128243_j10479720203131_1_alg».proof.Proof.KernelLayers

noncomputable section

open scoped BigOperators

namespace Cert.KernelIdeal.Payload

open Idealize.ShloMosaic Idealize.ShloMosaic.ValueIdx Cert.KernelIdeal Cert.KernelIdeal.Gen Cert.Spec

/-- The node kernel's stored block at `(p, j)` is `affine` of row `p` of its input block. -/
theorem node_payload_apply (x0 : FVec Ideal S2000x256 .f32) (x1 : FVec Ideal S256x128 .f32) (x2 : FVec Ideal S128 .f32)
    (p : Fin 2000) (j : Fin 128) :
    k0_pay1 (F := Ideal) x0 x1 x2 (ix2 p j)
      = affine (fun k : Fin 256 => x0 (ix2 p k)) (fun (k : Fin 256) (j : Fin 128) => x1 (ix2 k j)) (fun j : Fin 128 => x2 (ix1 j)) j :=
  node_layer_entry x0 x1 x2 p j

end Cert.KernelIdeal.Payload

end
-- ==== Proof.ValueNode.lean ====
/-
  The node table after the first call, as one function of the arrays the call reads.

  Point `t` reads rows 2000·t … 2000·t+1999 of the node features and the whole weight matrix and bias row, and writes
  rows 2000·t … 2000·t+1999 of the table; entry `(r, j)` it writes is `∑ k, x (r, k) · w (k, j) + b j`. The five blocks
  tile the table, so after the call the table is that function everywhere.
-/
import proofs.«128243_j10479720203131_1_alg».proof.Proof.IdealNode
import proofs.«128243_j10479720203131_1_alg».proof.Proof.NodePayload
import proofs.«128243_j10479720203131_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)
open Cert.KernelIdeal.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The node table after the first call, as one function of the three arrays it reads: row `r` is row `r` of the node
    features times the weight matrix, plus the bias row. -/
def nodeG (a0 : S10000x256.Idx → EReal) (a3 : S256x128.Idx → EReal) (a4 : S128.Idx → EReal) : S10000x128.Idx → EReal :=
  fun i => affine (fun k : Fin 256 => a0 (ix2 (⟨(i 0).val, (i 0).isLt⟩ : Fin 10000) k)) (fun (k : Fin 256) (j : Fin 128) => a3 (ix2 k j))
    (fun j : Fin 128 => a4 (ix1 j)) (⟨(i 1).val, (i 1).isLt⟩ : Fin 128)

/-- The block index maps over the five grid points: the node rows and the output rows move together, block `t` at point
    `t`; the weight matrix and the bias row are one block. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 1) = 0 ∧ win0_3.index t (1 : Fin 2) = 0 ∧ win0_3.index t (0 : Fin 2) = t.val :=
  (by decide +kernel : ∀ t : Fin grid0.N, _)

/-- What point `t` writes back is block `t` of `nodeG` of the arrays as the call finds them. -/
theorem flushed0_3_eq (c : Dev nD) (t : Fin cfg0.N) :
    (dat0 V c).flushed 3 t = ((cfg0.win 3).blk t).view.read (Elt Ideal) (nodeG (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x128) hz2, View.ld_unit_zero (S := S128) hz1]
  obtain ⟨e0, e1, e2, e3, e4, e5, e6⟩ := idx_facts0 t
  funext y
  obtain ⟨p, q, rfl⟩ : ∃ (p : Fin 2000) (q : Fin 128), y = ix2 p q := ⟨y 0, y 1, eq_ix2 y⟩
  show k0_pay1 (F := Ideal) (iblk0 V c 0 t) (iblk0 V c 1 t) (iblk0 V c 2 t) (ix2 p q)
    = nodeG (V c main_arg0) (V c main_arg3) (V c main_arg4) (((cfg0.win 3).blk t).view.emb (ix2 p q))
  refine (node_payload_apply _ _ _ p q).trans ?_
  have hrow : ((((cfg0.win 3).blk t).view.emb (ix2 p q)) 0).val = t.val * 2000 + p.val := by
    show win0_3.index t (0 : Fin 2) * 2000 + 1 * p.val = _; omega
  have hcol : ((((cfg0.win 3).blk t).view.emb (ix2 p q)) 1).val = q.val := by
    show win0_3.index t (1 : Fin 2) * 128 + 1 * q.val = _; omega
  unfold nodeG
  rw [show (⟨((((cfg0.win 3).blk t).view.emb (ix2 p q)) 1).val, ((((cfg0.win 3).blk t).view.emb (ix2 p q)) 1).isLt⟩ : Fin 128) = q from Fin.ext hcol]
  unfold affine
  refine congrArg₂ (· + ·) (Finset.sum_congr rfl fun k _ => congrArg₂ (· * ·) ?_ ?_) ?_
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = ((((cfg0.win 3).blk t).view.emb (ix2 p q)) 0).val; omega
    | ⟨1, _⟩ => show win0_0.index t (1 : Fin 2) * 256 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show V c main_arg4 (((cfg0.win 2).blk t).view.emb (ix1 q)) = _
    refine congrArg (V c main_arg4) (funext fun a => Fin.ext ?_)
    match a with
    | ⟨0, _⟩ => show win0_2.index t (0 : Fin 1) * 128 + 1 * q.val = q.val; omega

/-- An index of the node table is in point `t`'s block iff each coordinate is in the block's range on its axis. -/
theorem mem_blk0_3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- Each of the five row blocks is some point's. -/
theorem idx_onto0 : ∀ q0 : Fin 5, ∃ t : Fin cfg0.N, win0_3.index t = ![q0.val, 0] :=
  (by decide +kernel : ∀ q0 : Fin 5, ∃ t : Fin grid0.N, win0_3.index t = ![q0.val, 0])

/-- Every entry of the node table is written back by some point: row `r` by point `r / 2000`. -/
theorem covered0_3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The node table after the first call is `nodeG` of the arrays as the call finds them. -/
theorem final0_3 (c : Dev nD) : (dat0 V c).arrAt 3 cfg0.N = nodeG (V c main_arg0) (V c main_arg3) (V c main_arg4) :=
  (dat0 V c).arrAt_eq_of_cover 3 _ (fun t _ => flushed0_3_eq V c t) covered0_3

end Cert.KernelIdeal.Val

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.TrunkBlocks.lean ====
/-
  The trunk kernel's three intermediate blocks read at an entry, on the extended reals.

  Row `p` of the 2000 × 384 feature block goes through two hidden layers (an affine map, then the maximum with zero; the
  narrowing to the 16-bit format between them is the identity on the extended reals), the feature row is added back, and a third
  affine map gives the 2000 × 128 block `o`: its entry `(p, j)` is `Spec.preNorm` of the row at `j`. The row sums of `o`
  divided by 128 give the one-column block of means: entry `(p, 0)` is `Spec.mean128` of that row. The row sums of the
  squared differences from the mean give the third block: entry `(p, 0)` is `∑ j, (o j − mean)²`.
-/
import proofs.«128243_j10479720203131_1_alg».proof.Proof.KernelLayers
import proofs.«128243_j10479720203131_1_alg».proof.Proof.LibColumns

noncomputable section

open scoped BigOperators

namespace Cert.KernelIdeal.Payload

open Idealize.ShloMosaic Idealize.ShloMosaic.ValueIdx Cert.KernelIdeal Cert.KernelIdeal.Gen Cert.Spec Cert.LibColumns

/-- A hidden layer — narrowing of the input (the identity here), an affine layer, the maximum with zero — read at `(p, c)`. -/
theorem hidden_layer_entry (l : FVec Ideal S2000x384 .f32) (w : FVec Ideal S384x384 .bf16) (b : FVec Ideal S384 .f32)
    (p : Fin 2000) (c : Fin 384) :
    maximumf (addf (matmul dot_S2000x384_S384x384_S2000x384_1_0_0_1_n_n none (truncf .bf16 l bitsLt_bf16_f32)
          (shapeCast S384x384 w shapeCasts_S384x384_S384x384) (constant (F := Ideal) S2000x384 .f32 0x00000000#32))
        (broadcastTo S2000x384 (shapeCast S1x384 b shapeCasts_S384_S1x384) broadcasts_S1x384_S2000x384))
      (broadcast S2000x384 (Scalar.ofBits (F := Ideal) .f32 0x00000000#32)) (ix2 p c)
      = max (affine (fun k : Fin 384 => l (ix2 p k)) (fun (k c : Fin 384) => w (ix2 k c)) (fun c : Fin 384 => b (ix1 c)) c) 0 :=
  (relu_entry _ _).trans (congrArg (max · 0)
    ((wide_layer_entry _ _ b p c).trans (affine_congr (fun _ => rfl)
      (fun k c => congrFun (shapeCast_self w shapeCasts_S384x384_S384x384) (ix2 k c)) (fun _ => rfl) c)))

/-- The block `o` before the normalisation, at `(p, j)`: `preNorm` of row `p` of the feature block. -/
theorem pay2_entry (x0 : FVec Ideal S2000x384 .f32) (x1 : FVec Ideal S384x384 .bf16) (x2 : FVec Ideal S384 .f32)
    (x3 : FVec Ideal S384x384 .bf16) (x4 : FVec Ideal S384 .f32) (x5 : FVec Ideal S384x128 .bf16) (x6 : FVec Ideal S128 .f32)
    (p : Fin 2000) (j : Fin 128) :
    k1_pay2 (F := Ideal) x0 x1 x2 x3 x4 x5 x6 (ix2 p j)
      = preNorm (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j)) j := by
  have e0 : shapeCast S2000x384 x0 shapeCasts_S2000x384_S2000x384 = x0 := shapeCast_self x0 _
  unfold k1_pay2 preNorm
  rw [e0]
  refine (out_layer_entry _ _ x6 p j).trans (affine_congr (fun k => ?_)
    (fun k j => congrFun (shapeCast_self x5 shapeCasts_S384x128_S384x128) (ix2 k j)) (fun _ => rfl) j)
  refine congrArg₂ (· + ·) ((hidden_layer_entry _ x3 x4 p k).trans (congrArg (max · 0) (affine_congr (fun c => ?_) (fun _ _ => rfl) (fun _ => rfl) k))) rfl
  exact hidden_layer_entry x0 x1 x2 p c

/-- The block of means at `(p, 0)`: `mean128` of row `p` of `o`. -/
theorem pay3_entry (x0 : FVec Ideal S2000x384 .f32) (x1 : FVec Ideal S384x384 .bf16) (x2 : FVec Ideal S384 .f32)
    (x3 : FVec Ideal S384x384 .bf16) (x4 : FVec Ideal S384 .f32) (x5 : FVec Ideal S384x128 .bf16) (x6 : FVec Ideal S128 .f32)
    (p : Fin 2000) :
    k1_pay3 (F := Ideal) x0 x1 x2 x3 x4 x5 x6 (ix2 p 0)
      = mean128 (preNorm (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j))) := by
  unfold k1_pay3
  refine congrArg (Ideal.div · c128) ?_
  refine (shapeCast_vec_col (n := 2000) _ shapeCasts_S2000_S2000x1 p).trans ?_
  refine (multiReduction_rows (n := 2000) (m := 128) _ reduces_S2000x128_S2000 (.inl rfl) rfl p).trans ?_
  exact Finset.sum_congr rfl fun j _ => pay2_entry x0 x1 x2 x3 x4 x5 x6 p j

/-- A block minus a one-column block repeated along the rows, at `(p, j)`. -/
theorem centered_entry (o : FVec Ideal S2000x128 .f32) (m : FVec Ideal S2000x1 .f32) (p : Fin 2000) (j : Fin 128) :
    subf o (broadcastTo S2000x128 m broadcasts_S2000x1_S2000x128) (ix2 p j) = o (ix2 p j) - m (ix2 p 0) :=
  congrArg (o (ix2 p j) - ·) (broadcastTo_col (n := 2000) (m := 128) m broadcasts_S2000x1_S2000x128 p j)

/-- The block of summed squared differences at `(p, 0)`. -/
theorem pay4_entry (x0 : FVec Ideal S2000x384 .f32) (x1 : FVec Ideal S384x384 .bf16) (x2 : FVec Ideal S384 .f32)
    (x3 : FVec Ideal S384x384 .bf16) (x4 : FVec Ideal S384 .f32) (x5 : FVec Ideal S384x128 .bf16) (x6 : FVec Ideal S128 .f32)
    (p : Fin 2000) :
    k1_pay4 (F := Ideal) x0 x1 x2 x3 x4 x5 x6 (ix2 p 0)
      = ∑ j : Fin 128, ((preNorm (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j))) j - mean128 (preNorm (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j))))
          * ((preNorm (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j))) j - mean128 (preNorm (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j)))) := by
  unfold k1_pay4
  refine (shapeCast_vec_col (n := 2000) _ shapeCasts_S2000_S2000x1 p).trans ?_
  refine (multiReduction_rows (n := 2000) (m := 128) _ reduces_S2000x128_S2000 (.inl rfl) rfl p).trans ?_
  refine Finset.sum_congr rfl fun j _ => ?_
  have e := (centered_entry (k1_pay2 x0 x1 x2 x3 x4 x5 x6) (k1_pay3 x0 x1 x2 x3 x4 x5 x6) p j).trans
    (congrArg₂ (· - ·) (pay2_entry x0 x1 x2 x3 x4 x5 x6 p j) (pay3_entry x0 x1 x2 x3 x4 x5 x6 p))
  exact congrArg₂ (· * ·) e e

end Cert.KernelIdeal.Payload

end
-- ==== Proof.TrunkPayload.lean ====
/-
  The trunk kernel's stored block read at an entry, on the extended reals.

  From the block `o`, the one-column block `m` of row means and the one-column block `s` of summed squared differences the
  kernel stores `(o − m) · rsqrt (s / 128 + ε) · g + be`, with `m`, the reciprocal square root, and the vectors `g`, `be`
  repeated along the rows or the columns as their shapes ask. Read at `(p, q)` and with the three blocks' entries from the
  previous module, that is `Spec.trunkRow` of row `p` of the feature block, at `q`.
-/
import proofs.«128243_j10479720203131_1_alg».proof.Proof.TrunkBlocks

noncomputable section

open scoped BigOperators

namespace Cert.KernelIdeal.Payload

open Idealize.ShloMosaic Idealize.ShloMosaic.ValueIdx Cert.KernelIdeal Cert.KernelIdeal.Gen Cert.Spec Cert.LibColumns

/-- The stored block at `(p, q)` from any three blocks `o`, `m`, `s` and vectors `g`, `be`. -/
theorem pay1_entry (o : FVec Ideal S2000x128 .f32) (m s : FVec Ideal S2000x1 .f32) (g be : FVec Ideal S128 .f32)
    (p : Fin 2000) (q : Fin 128) :
    k1_pay1 (F := Ideal) o m s g be (ix2 p q)
      = (o (ix2 p q) - m (ix2 p 0)) * Ideal.rsqrt (Ideal.div (s (ix2 p 0)) c128 + ceps) * g (ix1 q) + be (ix1 q) := by
  unfold k1_pay1
  refine congrArg₂ (· + ·) (congrArg₂ (· * ·) (congrArg₂ (· * ·) (centered_entry o m p q) ?_)
    (spread_row g shapeCasts_S128_S1x128 broadcasts_S1x128_S2000x128 p q))
    (spread_row be shapeCasts_S128_S1x128 broadcasts_S1x128_S2000x128 p q)
  exact broadcastTo_col (n := 2000) (m := 128) _ broadcasts_S2000x1_S2000x128 p q

/-- The trunk kernel's stored block at `(p, q)` is `trunkRow` of row `p` of its feature block, at `q`. -/
theorem trunk_payload_apply (x0 : FVec Ideal S2000x384 .f32) (x1 : FVec Ideal S384x384 .bf16) (x2 : FVec Ideal S384 .f32)
    (x3 : FVec Ideal S384x384 .bf16) (x4 : FVec Ideal S384 .f32) (x5 : FVec Ideal S384x128 .bf16) (x6 : FVec Ideal S128 .f32)
    (x7 x8 : FVec Ideal S128 .f32) (p : Fin 2000) (q : Fin 128) :
    k1_pay1 (F := Ideal) (k1_pay2 x0 x1 x2 x3 x4 x5 x6) (k1_pay3 x0 x1 x2 x3 x4 x5 x6) (k1_pay4 x0 x1 x2 x3 x4 x5 x6) x7 x8 (ix2 p q)
      = trunkRow (fun k : Fin 384 => x0 (ix2 p k)) (fun (k c : Fin 384) => x1 (ix2 k c)) (fun c : Fin 384 => x2 (ix1 c))
          (fun (k c : Fin 384) => x3 (ix2 k c)) (fun c : Fin 384 => x4 (ix1 c)) (fun (k : Fin 384) (j : Fin 128) => x5 (ix2 k j))
          (fun j : Fin 128 => x6 (ix1 j)) (fun j : Fin 128 => x7 (ix1 j)) (fun j : Fin 128 => x8 (ix1 j)) q := by
  refine (pay1_entry _ _ _ x7 x8 p q).trans ?_
  rw [pay2_entry x0 x1 x2 x3 x4 x5 x6 p q, pay3_entry x0 x1 x2 x3 x4 x5 x6 p, pay4_entry x0 x1 x2 x3 x4 x5 x6 p]
  rfl

end Cert.KernelIdeal.Payload

end
-- ==== Proof.ValueTrunk.lean ====
/-
  The result after the second call, as one function of the arrays the call reads.

  Point `t` reads rows 2000·t … 2000·t+1999 of the edge feature matrix and every parameter array whole, and writes rows
  2000·t … 2000·t+1999 of the result; row `e` it writes is `trunkRow` of row `e` of the features and the parameters.
  The hundred blocks tile the result, so after the call the result is that function everywhere.
-/
import proofs.«128243_j10479720203131_1_alg».proof.Proof.IdealTrunk
import proofs.«128243_j10479720203131_1_alg».proof.Proof.TrunkPayload
import proofs.«128243_j10479720203131_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat)
open Cert.KernelIdeal.Payload

variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a; rfl

/-- The result after the second call, as one function of the nine arrays it reads: row `e` is `trunkRow` of row `e` of
    the edge features and the parameters. -/
def trunkG (H : S200000x384.Idx → EReal) (w1 : S384x384.Idx → EReal) (b1 : S384.Idx → EReal) (w2 : S384x384.Idx → EReal)
    (b2 : S384.Idx → EReal) (wf : S384x128.Idx → EReal) (bf g be : S128.Idx → EReal) : S200000x128.Idx → EReal :=
  fun i => trunkRow (fun k : Fin 384 => H (ix2 (⟨(i 0).val, (i 0).isLt⟩ : Fin 200000) k)) (fun (k c : Fin 384) => w1 (ix2 k c))
    (fun c : Fin 384 => b1 (ix1 c)) (fun (k c : Fin 384) => w2 (ix2 k c)) (fun c : Fin 384 => b2 (ix1 c))
    (fun (k : Fin 384) (j : Fin 128) => wf (ix2 k j)) (fun j : Fin 128 => bf (ix1 j)) (fun j : Fin 128 => g (ix1 j))
    (fun j : Fin 128 => be (ix1 j)) (⟨(i 1).val, (i 1).isLt⟩ : Fin 128)

/-- `trunkRow` takes equal values at pointwise equal arguments. -/
theorem trunkRow_congr {h h' : Fin 384 → EReal} {w1 w1' w2 w2' : Fin 384 → Fin 384 → EReal} {b1 b1' b2 b2' : Fin 384 → EReal}
    {wf wf' : Fin 384 → Fin 128 → EReal} {bf bf' g g' be be' : Fin 128 → EReal} (q : Fin 128)
    (eh : ∀ k, h k = h' k) (e1 : ∀ k c, w1 k c = w1' k c) (eb1 : ∀ c, b1 c = b1' c) (e2 : ∀ k c, w2 k c = w2' k c)
    (eb2 : ∀ c, b2 c = b2' c) (ef : ∀ k j, wf k j = wf' k j) (ebf : ∀ j, bf j = bf' j) (eg : ∀ j, g j = g' j) (ebe : ∀ j, be j = be' j) :
    trunkRow h w1 b1 w2 b2 wf bf g be q = trunkRow h' w1' b1' w2' b2' wf' bf' g' be' q := by
  rw [funext eh, funext fun k => funext (e1 k), funext eb1, funext fun k => funext (e2 k), funext eb2,
    funext fun k => funext (ef k), funext ebf, funext eg, funext ebe]

/-- The block index maps over the hundred grid points: the edge rows and the output rows move together, block `t` at
    point `t`; every parameter array is one block. -/
theorem idx_facts1 : ∀ t : Fin cfg1.N, win1_0.index t (0 : Fin 2) = win1_9.index t (0 : Fin 2)
    ∧ win1_0.index t (1 : Fin 2) = 0 ∧ win1_1.index t (0 : Fin 2) = 0 ∧ win1_1.index t (1 : Fin 2) = 0
    ∧ win1_2.index t (0 : Fin 1) = 0 ∧ win1_3.index t (0 : Fin 2) = 0 ∧ win1_3.index t (1 : Fin 2) = 0
    ∧ win1_4.index t (0 : Fin 1) = 0 ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0
    ∧ win1_9.index t (1 : Fin 2) = 0 ∧ win1_9.index t (0 : Fin 2) = t.val :=
  (by decide +kernel : ∀ t : Fin grid1.N, _)

/-- What point `t` writes back is block `t` of `trunkG` of the arrays as the call finds them. -/
theorem flushed1_9_eq (c : Dev nD) (t : Fin cfg1.N) :
    (dat1 V c).flushed 9 t = ((cfg1.win 9).blk t).view.read (Elt Ideal)
      (trunkG (V c main_v19) (V c main_v20) (V c main_arg6) (V c main_v21) (V c main_arg8) (V c main_v22) (V c main_arg10) (V c main_arg11) (V c main_arg12)) := by
  show (cfg1.win 9).cut (grid1.coords t) ((dat1 V c).after 9 t) = _
  rw [after1_9]
  unfold out1_9
  rw [View.canon_unit_zero hz2']
  simp only [View.ld_unit_zero (S := S2000x384) hz2', View.ld_unit_zero (S := S384x384) hz2', View.ld_unit_zero (S := S384x128) hz2',
    View.ld_unit_zero (S := S384) hz1', View.ld_unit_zero (S := S128) hz1']
  obtain ⟨e0, e1, e2, e3, e4, e5, e6, e7, e8, e9, e10, e11, e12, e13, e14⟩ := idx_facts1 t
  funext y
  obtain ⟨p, q, rfl⟩ : ∃ (p : Fin 2000) (q : Fin 128), y = ix2 p q := ⟨y 0, y 1, eq_ix2 y⟩
  show k1_pay1 (F := Ideal) (k1_pay2 (iblk1 V c 0 t) (iblk1 V c 1 t) (iblk1 V c 2 t) (iblk1 V c 3 t) (iblk1 V c 4 t) (iblk1 V c 5 t) (iblk1 V c 6 t))
      (k1_pay3 (iblk1 V c 0 t) (iblk1 V c 1 t) (iblk1 V c 2 t) (iblk1 V c 3 t) (iblk1 V c 4 t) (iblk1 V c 5 t) (iblk1 V c 6 t))
      (k1_pay4 (iblk1 V c 0 t) (iblk1 V c 1 t) (iblk1 V c 2 t) (iblk1 V c 3 t) (iblk1 V c 4 t) (iblk1 V c 5 t) (iblk1 V c 6 t))
      (iblk1 V c 7 t) (iblk1 V c 8 t) (ix2 p q)
    = trunkG (V c main_v19) (V c main_v20) (V c main_arg6) (V c main_v21) (V c main_arg8) (V c main_v22) (V c main_arg10) (V c main_arg11) (V c main_arg12)
        (((cfg1.win 9).blk t).view.emb (ix2 p q))
  refine (trunk_payload_apply _ _ _ _ _ _ _ _ _ p q).trans ?_
  have hrow : ((((cfg1.win 9).blk t).view.emb (ix2 p q)) 0).val = t.val * 2000 + p.val := by
    show win1_9.index t (0 : Fin 2) * 2000 + 1 * p.val = _; omega
  have hcol : ((((cfg1.win 9).blk t).view.emb (ix2 p q)) 1).val = q.val := by
    show win1_9.index t (1 : Fin 2) * 128 + 1 * q.val = _; omega
  unfold trunkG
  rw [show (⟨((((cfg1.win 9).blk t).view.emb (ix2 p q)) 1).val, ((((cfg1.win 9).blk t).view.emb (ix2 p q)) 1).isLt⟩ : Fin 128) = q from Fin.ext hcol]
  refine trunkRow_congr q (fun k => ?_) (fun k c' => ?_) (fun c' => ?_) (fun k c' => ?_) (fun c' => ?_) (fun k c' => ?_) (fun c' => ?_) (fun c' => ?_) (fun c' => ?_)
  · show V c main_v19 (((cfg1.win 0).blk t).view.emb (ix2 p k)) = _
    refine congrArg (V c main_v19) (funext fun a => Fin.ext ?_)
    match a with
    | ⟨0, _⟩ => show win1_0.index t (0 : Fin 2) * 2000 + 1 * p.val = ((((cfg1.win 9).blk t).view.emb (ix2 p q)) 0).val; omega
    | ⟨1, _⟩ => show win1_0.index t (1 : Fin 2) * 384 + 1 * k.val = k.val; omega
  · show V c main_v20 (((cfg1.win 1).blk t).view.emb (ix2 k c')) = _
    refine congrArg (V c main_v20) (funext fun a => Fin.ext ?_)
    match a with
    | ⟨0, _⟩ => show win1_1.index t (0 : Fin 2) * 384 + 1 * k.val = k.val; omega
    | ⟨1, _⟩ => show win1_1.index t (1 : Fin 2) * 384 + 1 * c'.val = c'.val; omega
  · show V c main_arg6 (((cfg1.win 2).blk t).view.emb (ix1 c')) = _
    refine congrArg (V c main_arg6) (funext fun a => Fin.ext ?_)
    match a with
    | ⟨0, _⟩ => show win1_2.index t (0 : Fin 1) * 384 + 1 * c'.val = c'.val; omega
  · show V c main_v21 (((cfg1.win 3).blk t).view.emb (ix2 k c')) = _
    refine congrArg (V c main_v21) (funext fun a => Fin.ext ?_)
    match a with
    | ⟨0, _⟩ => show win1_3.index t (0 : Fin 2) * 384 + 1 * k.val = k.val; omega
    | ⟨1, _⟩ => show win1_3.index t (1 : Fin 2) * 384 + 1 * c'.val = c'.val; omega
  · show V c main_arg8 (((cfg1.win 4).blk t).view.emb (ix1 c')) = _
    refine congrArg (V c main_arg8) (funext fun a => Fin.ext ?_)
    match a with
    | ⟨0, _⟩ => show win1_4.index t (0 : Fin 1) * 384 + 1 * c'.val = c'.val; omega
  · show V c main_v22 (((cfg1.win 5).blk t).view.emb (ix2 k c')) = _
    refine congrArg (V c main_v22) (funext fun a => Fin.ext ?_)
    match a with
    | ⟨0, _⟩ => show win1_5.index t (0 : Fin 2) * 384 + 1 * k.val = k.val; omega
    | ⟨1, _⟩ => show win1_5.index t (1 : Fin 2) * 128 + 1 * c'.val = c'.val; omega
  · show V c main_arg10 (((cfg1.win 6).blk t).view.emb (ix1 c')) = _
    refine congrArg (V c main_arg10) (funext fun a => Fin.ext ?_)
    match a with
    | ⟨0, _⟩ => show win1_6.index t (0 : Fin 1) * 128 + 1 * c'.val = c'.val; omega
  · show V c main_arg11 (((cfg1.win 7).blk t).view.emb (ix1 c')) = _
    refine congrArg (V c main_arg11) (funext fun a => Fin.ext ?_)
    match a with
    | ⟨0, _⟩ => show win1_7.index t (0 : Fin 1) * 128 + 1 * c'.val = c'.val; omega
  · show V c main_arg12 (((cfg1.win 8).blk t).view.emb (ix1 c')) = _
    refine congrArg (V c main_arg12) (funext fun a => Fin.ext ?_)
    match a with
    | ⟨0, _⟩ => show win1_8.index t (0 : Fin 1) * 128 + 1 * c'.val = c'.val; omega

/-- An index of the result is in point `t`'s block iff each coordinate is in the block's range on its axis. -/
theorem mem_blk1_9 (t : Fin cfg1.N) (i : S200000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v23).slice (win1_9.rect t)).set ↔ _
  rw [View.set_slice_whole, Rect.mem_set_unit]
  exact Iff.rfl

/-- Each of the hundred row blocks is some point's. -/
theorem idx_onto1 : ∀ q0 : Fin 100, ∃ t : Fin cfg1.N, win1_9.index t = ![q0.val, 0] :=
  (by decide +kernel : ∀ q0 : Fin 100, ∃ t : Fin grid1.N, win1_9.index t = ![q0.val, 0])

/-- Every entry of the result is written back by some point: row `e` by point `e / 2000`. -/
theorem covered1_9 (i : S200000x128.Idx) : ∃ t : Fin cfg1.N, (cfg1.win 9).flush t = true ∧ i ∈ ((cfg1.win 9).blk t).view.set := by
  have hi0 : (i 0).val < 200000 := (i 0).isLt
  have hi1 : (i 1).val < 128 := (i 1).isLt
  obtain ⟨t, ht⟩ := idx_onto1 ⟨(i 0).val / 2000, by omega⟩
  have q0 : win1_9.index t (0 : Fin 2) = (i 0).val / 2000 := congrFun ht 0
  have q1 : win1_9.index t (1 : Fin 2) = 0 := congrFun ht 1
  refine ⟨t, flush1_9 t, ?_⟩
  rw [mem_blk1_9]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- The result after the second call is `trunkG` of the arrays as the call finds them. -/
theorem final1_9 (c : Dev nD) : (dat1 V c).arrAt 9 cfg1.N
    = trunkG (V c main_v19) (V c main_v20) (V c main_arg6) (V c main_v21) (V c main_arg8) (V c main_v22) (V c main_arg10) (V c main_arg11) (V c main_arg12) :=
  (dat1 V c).arrAt_eq_of_cover 9 _ (fun t _ => flushed1_9_eq V c t) covered1_9

end Cert.KernelIdeal.Val

end
-- ==== Proof.RefNode.lean ====
/-
  The reference's first stage, read at one entry.

  The reference sends every node's 256 input features through one affine map to 128 features: entry `(r, j)` of the
  resulting matrix is the sum over `k` of `x (r, k) · w (k, j)`, plus the bias `b j`. This module proves that reading of
  the reference's third value at the extended-real instance, in the form of the specification's `affine`: first the two
  index maps of the product and the one of the bias row's two broadcasts are identified with plain coordinates, then the
  product, the broadcast and the sum are read at the entry.
-/
import proofs.«128243_j10479720203131_1_alg».proof.Proof.Gen.ReferenceIdeal.Read
import proofs.«128243_j10479720203131_1_alg».proof.Proof.Spec

noncomputable section

open scoped BigOperators

namespace Cert.ReferenceIdeal.RefValue

open Idealize.ShloMosaic Idealize.ShloMosaic.ValueIdx Cert.ReferenceIdeal Cert.ReferenceIdeal.Read Cert.Spec

/-- The product's left operand is read at row `r`, column `k`. -/
theorem lidx_v0 (r : Fin 10000) (j : Fin 128) (k : Fin 256) : lidx_main_v0 (ix2 r j) k = ix2 r k :=
  funext fun a => Fin.ext (by match a with | ⟨0, _⟩ => rfl | ⟨1, _⟩ => rfl)

/-- The product's right operand is read at row `k`, column `j`. -/
theorem ridx_v0 (r : Fin 10000) (j : Fin 128) (k : Fin 256) : ridx_main_v0 (ix2 r j) k = ix2 k j :=
  funext fun a => Fin.ext (by match a with | ⟨0, _⟩ => rfl | ⟨1, _⟩ => rfl)

/-- The bias row broadcast over the nodes reads the bias at the column. -/
theorem bias_v2 (a4 : (⟨S128, .f32⟩ : BufTy).Contents (Elt Ideal)) (r : Fin 10000) (j : Fin 128) :
    val_main_v2 (F := Ideal) a4 (ix2 r j) = a4 (ix1 j) := by
  rw [val_main_v2_apply, val_main_v1_apply]
  exact congrArg a4 (funext fun a => Fin.ext (by match a with | ⟨0, _⟩ => rfl))

/-- The node-linear stage at entry `(r, j)`: row `r` of the inputs times the weight matrix, plus the bias, at `j`. -/
theorem ref_node_apply (a0 : (⟨S10000x256, .f32⟩ : BufTy).Contents (Elt Ideal)) (a3 : (⟨S256x128, .f32⟩ : BufTy).Contents (Elt Ideal))
    (a4 : (⟨S128, .f32⟩ : BufTy).Contents (Elt Ideal)) (r : Fin 10000) (j : Fin 128) :
    val_main_v3 (F := Ideal) a0 a3 a4 (ix2 r j)
      = affine (fun k : Fin 256 => a0 (ix2 r k)) (fun (k : Fin 256) (j : Fin 128) => a3 (ix2 k j)) (fun j : Fin 128 => a4 (ix1 j)) j := by
  rw [val_main_v3_apply, val_main_v0_apply, bias_v2, Ideal.addf_def]
  refine congrArg (· + a4 (ix1 j)) (Finset.sum_congr rfl fun k _ => ?_)
  rw [lidx_v0, ridx_v0]

end Cert.ReferenceIdeal.RefValue

end
-- ==== Proof.RefTail.lean ====
/-
  The reference's trunk, read at one entry.

  After the feature matrix (one row of 384 features per edge, which this module never opens: it is carried as an opaque
  matrix), the reference applies to every row `h` the same chain: `max (h · W₁ + b₁) 0`, then `max (· W₂ + b₂) 0`, the row
  `h` added back, a third affine map to a row `o` of 128 entries, and the normalisation of `o`: its mean `μ = (∑ o) / 128`,
  its variance `v = (∑ (o − μ)²) / 128`, and entry `q` equal to `(o q − μ) · rsqrt (v + ε) · g q + β q`.

  The module reads the reference's values one operation at a time at an entry `(e, c)`, at the extended-real instance.
  Each product is a sum over the contracted coordinate, each broadcast reads its operand at the coordinate it keeps, each
  row reduction is the zero word's value (which is `0`) plus the sum over the row, and every other operation acts entry
  by entry. The layers are: the first affine map and its `max`, the second and its `max`, the residual sum, the third
  affine map (the specification's `preNorm`), the mean, the variance, and the normalised, scaled and shifted entry (the
  specification's `trunkRow`).
-/
import proofs.«128243_j10479720203131_1_alg».proof.Proof.Gen.ReferenceIdeal.Read
import proofs.«128243_j10479720203131_1_alg».proof.Proof.Spec

noncomputable section

open scoped BigOperators

namespace Cert.ReferenceIdeal.RefValue

open Idealize.ShloMosaic Idealize.ShloMosaic.ValueIdx Cert.ReferenceIdeal Cert.ReferenceIdeal.Read Cert.Spec

/-! ## Matrices and vectors as functions of their coordinates -/

/-- A matrix as a function of its row and column. -/
abbrev mat {K M : ℕ} (a : (⟨⟨2, ![K, M]⟩, .f32⟩ : BufTy).Contents (Elt Ideal)) : Fin K → Fin M → EReal := fun k j => a (ix2 k j)

/-- A vector as a function of its coordinate. -/
abbrev vec {M : ℕ} (a : (⟨⟨1, ![M]⟩, .f32⟩ : BufTy).Contents (Elt Ideal)) : Fin M → EReal := fun j => a (ix1 j)

/-! ## Index maps of the products, the reductions and the column broadcasts, in coordinates -/

theorem lidx_v23 (e : Fin 200000) (c k : Fin 384) : lidx_main_v23 (ix2 e c) k = ix2 e k := funext fun a => Fin.ext (by match a with | ⟨0, _⟩ => rfl | ⟨1, _⟩ => rfl)
theorem ridx_v23 (e : Fin 200000) (c k : Fin 384) : ridx_main_v23 (ix2 e c) k = ix2 k c := funext fun a => Fin.ext (by match a with | ⟨0, _⟩ => rfl | ⟨1, _⟩ => rfl)
theorem lidx_v28 (e : Fin 200000) (c k : Fin 384) : lidx_main_v28 (ix2 e c) k = ix2 e k := funext fun a => Fin.ext (by match a with | ⟨0, _⟩ => rfl | ⟨1, _⟩ => rfl)
theorem ridx_v28 (e : Fin 200000) (c k : Fin 384) : ridx_main_v28 (ix2 e c) k = ix2 k c := funext fun a => Fin.ext (by match a with | ⟨0, _⟩ => rfl | ⟨1, _⟩ => rfl)
theorem lidx_v34 (e : Fin 200000) (j : Fin 128) (k : Fin 384) : lidx_main_v34 (ix2 e j) k = ix2 e k := funext fun a => Fin.ext (by match a with | ⟨0, _⟩ => rfl | ⟨1, _⟩ => rfl)
theorem ridx_v34 (e : Fin 200000) (j : Fin 128) (k : Fin 384) : ridx_main_v34 (ix2 e j) k = ix2 k j := funext fun a => Fin.ext (by match a with | ⟨0, _⟩ => rfl | ⟨1, _⟩ => rfl)
theorem idx_v38 (e : Fin 200000) (k : Fin 128) : idx_main_v38 (ix1 e) k = ix2 e k := funext fun a => Fin.ext (by match a with | ⟨0, _⟩ => rfl | ⟨1, _⟩ => rfl)
theorem idx_v45 (e : Fin 200000) (k : Fin 128) : idx_main_v45 (ix1 e) k = ix2 e k := funext fun a => Fin.ext (by match a with | ⟨0, _⟩ => rfl | ⟨1, _⟩ => rfl)
theorem idx_v39 (e : Fin 200000) : idx_main_v39 (ix2 e (0 : Fin 1)) = ix1 e := funext fun a => Fin.ext (by match a with | ⟨0, _⟩ => rfl)
theorem idx_v46 (e : Fin 200000) : idx_main_v46 (ix2 e (0 : Fin 1)) = ix1 e := funext fun a => Fin.ext (by match a with | ⟨0, _⟩ => rfl)
theorem idx_v42 (e : Fin 200000) (j : Fin 128) : idx_main_v42 (ix2 e j) = ix2 e (0 : Fin 1) := funext fun a => Fin.ext (by match a with | ⟨0, _⟩ => rfl | ⟨1, _⟩ => rfl)
theorem idx_v49 (e : Fin 200000) (j : Fin 128) : idx_main_v49 (ix2 e j) = ix2 e (0 : Fin 1) := funext fun a => Fin.ext (by match a with | ⟨0, _⟩ => rfl | ⟨1, _⟩ => rfl)
theorem idx_v54 (e : Fin 200000) (j : Fin 128) : idx_main_v54 (ix2 e j) = ix2 e (0 : Fin 1) := funext fun a => Fin.ext (by match a with | ⟨0, _⟩ => rfl | ⟨1, _⟩ => rfl)

/-! ## Parameter rows broadcast over the edges, and the constants -/

/-- The first bias row broadcast over the edges reads the bias at the column. -/
theorem v25_at (a6 : (⟨S384, .f32⟩ : BufTy).Contents (Elt Ideal)) (e : Fin 200000) (c : Fin 384) : val_main_v25 (F := Ideal) a6 (ix2 e c) = a6 (ix1 c) := by
  rw [val_main_v25_apply, val_main_v24_apply]
  exact congrArg a6 (funext fun a => Fin.ext (by match a with | ⟨0, _⟩ => rfl))

/-- The second bias row, likewise. -/
theorem v30_at (a8 : (⟨S384, .f32⟩ : BufTy).Contents (Elt Ideal)) (e : Fin 200000) (c : Fin 384) : val_main_v30 (F := Ideal) a8 (ix2 e c) = a8 (ix1 c) := by
  rw [val_main_v30_apply, val_main_v29_apply]
  exact congrArg a8 (funext fun a => Fin.ext (by match a with | ⟨0, _⟩ => rfl))

/-- The third bias row, likewise. -/
theorem v36_at (a10 : (⟨S128, .f32⟩ : BufTy).Contents (Elt Ideal)) (e : Fin 200000) (j : Fin 128) : val_main_v36 (F := Ideal) a10 (ix2 e j) = a10 (ix1 j) := by
  rw [val_main_v36_apply, val_main_v35_apply]
  exact congrArg a10 (funext fun a => Fin.ext (by match a with | ⟨0, _⟩ => rfl))

/-- The scale row, likewise. -/
theorem v57_at (a11 : (⟨S128, .f32⟩ : BufTy).Contents (Elt Ideal)) (e : Fin 200000) (j : Fin 128) : val_main_v57 (F := Ideal) a11 (ix2 e j) = a11 (ix1 j) := by
  rw [val_main_v57_apply, val_main_v56_apply]
  exact congrArg a11 (funext fun a => Fin.ext (by match a with | ⟨0, _⟩ => rfl))

/-- The shift row, likewise. -/
theorem v60_at (a12 : (⟨S128, .f32⟩ : BufTy).Contents (Elt Ideal)) (e : Fin 200000) (j : Fin 128) : val_main_v60 (F := Ideal) a12 (ix2 e j) = a12 (ix1 j) := by
  rw [val_main_v60_apply, val_main_v59_apply]
  exact congrArg a12 (funext fun a => Fin.ext (by match a with | ⟨0, _⟩ => rfl))

/-- The first `max`'s second operand is the zero word's value everywhere, which is `0`. -/
theorem relu0_at (e : Fin 200000) (c : Fin 384) : val_main_call0_v0 (F := Ideal) (ix2 e c) = 0 := by
  rw [val_main_call0_v0_apply, val_main_call0_cst_apply, Ideal.ofBits_def, Ideal.ofBits_zero_f32]

/-- The second `max`'s second operand, likewise. -/
theorem relu1_at (e : Fin 200000) (c : Fin 384) : val_main_call1_v0 (F := Ideal) (ix2 e c) = 0 := by
  rw [val_main_call1_v0_apply, val_main_call1_cst_apply, Ideal.ofBits_def, Ideal.ofBits_zero_f32]

/-- The mean's divisor is the value of the word `0x43000000` in every row. -/
theorem v40_at (e : Fin 200000) : val_main_v40 (F := Ideal) (ix2 e (0 : Fin 1)) = c128 := by
  rw [val_main_v40_apply, val_main_cst_3_apply, Ideal.ofBits_def]
  rfl

/-- The variance's divisor, likewise. -/
theorem v47_at (e : Fin 200000) : val_main_v47 (F := Ideal) (ix2 e (0 : Fin 1)) = c128 := by
  rw [val_main_v47_apply, val_main_cst_5_apply, Ideal.ofBits_def]
  rfl

/-- The constant added to the variance is the value of the word `0x3727C5AC` in every row. -/
theorem v51_at (e : Fin 200000) : val_main_v51 (F := Ideal) (ix2 e (0 : Fin 1)) = ceps := by
  rw [val_main_v51_apply, val_main_cst_6_apply, Ideal.ofBits_def]
  rfl

section Trunk

variable (a0 : (⟨S10000x256, .f32⟩ : BufTy).Contents (Elt Ideal)) (a1 : (⟨S200000x128, .f32⟩ : BufTy).Contents (Elt Ideal))
  (a2 : (⟨S2x200000, .i32⟩ : BufTy).Contents (Elt Ideal)) (a3 : (⟨S256x128, .f32⟩ : BufTy).Contents (Elt Ideal))
  (a4 : (⟨S128, .f32⟩ : BufTy).Contents (Elt Ideal)) (a5 : (⟨S384x384, .f32⟩ : BufTy).Contents (Elt Ideal))
  (a6 : (⟨S384, .f32⟩ : BufTy).Contents (Elt Ideal)) (a7 : (⟨S384x384, .f32⟩ : BufTy).Contents (Elt Ideal))
  (a8 : (⟨S384, .f32⟩ : BufTy).Contents (Elt Ideal)) (a9 : (⟨S384x128, .f32⟩ : BufTy).Contents (Elt Ideal))
  (a10 a11 a12 : (⟨S128, .f32⟩ : BufTy).Contents (Elt Ideal))

/-- Edge `e`'s row of the feature matrix, which stays opaque. -/
abbrev featRow (e : Fin 200000) : Fin 384 → EReal := fun k => val_main_v22 (F := Ideal) a0 a1 a2 a3 a4 (ix2 e k)

/-! ## The first affine map and its `max` -/

/-- The first product at `(e, c)`: the feature row times column `c` of the first weight matrix. -/
theorem v23_at (e : Fin 200000) (c : Fin 384) :
    val_main_v23 (F := Ideal) a0 a1 a2 a3 a4 a5 (ix2 e c) = ∑ k : Fin 384, featRow a0 a1 a2 a3 a4 e k * a5 (ix2 k c) := by
  rw [val_main_v23_apply]
  refine Finset.sum_congr rfl fun k _ => ?_
  rw [lidx_v23, ridx_v23]

theorem v26_at (e : Fin 200000) (c : Fin 384) :
    val_main_v26 (F := Ideal) a0 a1 a2 a3 a4 a5 a6 (ix2 e c) = affine (featRow a0 a1 a2 a3 a4 e) (mat a5) (vec a6) c := by
  rw [val_main_v26_apply, v23_at, v25_at, Ideal.addf_def]
  rfl

theorem v27_at (e : Fin 200000) (c : Fin 384) :
    val_main_v27 (F := Ideal) a0 a1 a2 a3 a4 a5 a6 (ix2 e c) = max (affine (featRow a0 a1 a2 a3 a4 e) (mat a5) (vec a6) c) 0 := by
  rw [val_main_v27_apply, v26_at, relu0_at, Ideal.maximumf_def]

/-! ## The second affine map, its `max`, and the feature row added back -/

/-- The second product at `(e, c)`. -/
theorem v28_at (e : Fin 200000) (c : Fin 384) :
    val_main_v28 (F := Ideal) a0 a1 a2 a3 a4 a5 a6 a7 (ix2 e c) = ∑ k : Fin 384, max (affine (featRow a0 a1 a2 a3 a4 e) (mat a5) (vec a6) k) 0 * a7 (ix2 k c) := by
  rw [val_main_v28_apply]
  refine Finset.sum_congr rfl fun k _ => ?_
  rw [lidx_v28, ridx_v28, v27_at]

theorem v31_at (e : Fin 200000) (c : Fin 384) :
    val_main_v31 (F := Ideal) a0 a1 a2 a3 a4 a5 a6 a7 a8 (ix2 e c) = affine (fun c : Fin 384 => max (affine (featRow a0 a1 a2 a3 a4 e) (mat a5) (vec a6) c) 0) (mat a7) (vec a8) c := by
  rw [val_main_v31_apply, v28_at, v30_at, Ideal.addf_def]
  rfl

theorem v32_at (e : Fin 200000) (c : Fin 384) :
    val_main_v32 (F := Ideal) a0 a1 a2 a3 a4 a5 a6 a7 a8 (ix2 e c) = max (affine (fun c : Fin 384 => max (affine (featRow a0 a1 a2 a3 a4 e) (mat a5) (vec a6) c) 0) (mat a7) (vec a8) c) 0 := by
  rw [val_main_v32_apply, v31_at, relu1_at, Ideal.maximumf_def]

theorem v33_at (e : Fin 200000) (c : Fin 384) :
    val_main_v33 (F := Ideal) a0 a1 a2 a3 a4 a5 a6 a7 a8 (ix2 e c) = max (affine (fun c : Fin 384 => max (affine (featRow a0 a1 a2 a3 a4 e) (mat a5) (vec a6) c) 0) (mat a7) (vec a8) c) 0 + featRow a0 a1 a2 a3 a4 e c := by
  rw [val_main_v33_apply, v32_at, Ideal.addf_def]

/-! ## The third affine map: the row before the normalisation -/

/-- Edge `e`'s row of 128 entries before the normalisation. -/
abbrev outRow (e : Fin 200000) : Fin 128 → EReal :=
  preNorm (featRow a0 a1 a2 a3 a4 e) (mat a5) (vec a6) (mat a7) (vec a8) (mat a9) (vec a10)

/-- The third product at `(e, j)`. -/
theorem v34_at (e : Fin 200000) (j : Fin 128) :
    val_main_v34 (F := Ideal) a0 a1 a2 a3 a4 a5 a6 a7 a8 a9 (ix2 e j)
      = ∑ k : Fin 384, (max (affine (fun c : Fin 384 => max (affine (featRow a0 a1 a2 a3 a4 e) (mat a5) (vec a6) c) 0) (mat a7) (vec a8) k) 0 + featRow a0 a1 a2 a3 a4 e k) * a9 (ix2 k j) := by
  rw [val_main_v34_apply]
  refine Finset.sum_congr rfl fun k _ => ?_
  rw [lidx_v34, ridx_v34, v33_at]

theorem v37_at (e : Fin 200000) (j : Fin 128) :
    val_main_v37 (F := Ideal) a0 a1 a2 a3 a4 a5 a6 a7 a8 a9 a10 (ix2 e j) = outRow a0 a1 a2 a3 a4 a5 a6 a7 a8 a9 a10 e j := by
  rw [val_main_v37_apply, v34_at, v36_at, Ideal.addf_def]
  rfl

/-! ## The mean of the row -/

/-- The row's sum: the zero word's value, which is `0`, plus the sum of the 128 entries. -/
theorem v38_at (e : Fin 200000) :
    val_main_v38 (F := Ideal) a0 a1 a2 a3 a4 a5 a6 a7 a8 a9 a10 (ix1 e) = ∑ j : Fin 128, outRow a0 a1 a2 a3 a4 a5 a6 a7 a8 a9 a10 e j := by
  rw [val_main_v38_apply, val_main_cst_apply, Ideal.ofBits_def, Ideal.ofBits_zero_f32, zero_add]
  refine Finset.sum_congr rfl fun k _ => ?_
  rw [idx_v38, v37_at]

theorem v41_at (e : Fin 200000) :
    val_main_v41 (F := Ideal) a0 a1 a2 a3 a4 a5 a6 a7 a8 a9 a10 (ix2 e (0 : Fin 1)) = mean128 (outRow a0 a1 a2 a3 a4 a5 a6 a7 a8 a9 a10 e) := by
  rw [val_main_v41_apply, val_main_v39_apply, idx_v39, v38_at, v40_at, Ideal.hostDivf_def]
  rfl

/-! ## The variance of the row -/

theorem v43_at (e : Fin 200000) (j : Fin 128) :
    val_main_v43 (F := Ideal) a0 a1 a2 a3 a4 a5 a6 a7 a8 a9 a10 (ix2 e j) = (outRow a0 a1 a2 a3 a4 a5 a6 a7 a8 a9 a10 e) j - mean128 (outRow a0 a1 a2 a3 a4 a5 a6 a7 a8 a9 a10 e) := by
  rw [val_main_v43_apply, v37_at, val_main_v42_apply, idx_v42, v41_at, Ideal.subf_def]

theorem v44_at (e : Fin 200000) (j : Fin 128) :
    val_main_v44 (F := Ideal) a0 a1 a2 a3 a4 a5 a6 a7 a8 a9 a10 (ix2 e j) = ((outRow a0 a1 a2 a3 a4 a5 a6 a7 a8 a9 a10 e) j - mean128 (outRow a0 a1 a2 a3 a4 a5 a6 a7 a8 a9 a10 e)) * ((outRow a0 a1 a2 a3 a4 a5 a6 a7 a8 a9 a10 e) j - mean128 (outRow a0 a1 a2 a3 a4 a5 a6 a7 a8 a9 a10 e)) := by
  rw [val_main_v44_apply, v43_at, Ideal.mulf_def]

/-- The sum of the squared deviations: again `0` plus the sum over the row. -/
theorem v45_at (e : Fin 200000) :
    val_main_v45 (F := Ideal) a0 a1 a2 a3 a4 a5 a6 a7 a8 a9 a10 (ix1 e) = ∑ j : Fin 128, ((outRow a0 a1 a2 a3 a4 a5 a6 a7 a8 a9 a10 e) j - mean128 (outRow a0 a1 a2 a3 a4 a5 a6 a7 a8 a9 a10 e)) * ((outRow a0 a1 a2 a3 a4 a5 a6 a7 a8 a9 a10 e) j - mean128 (outRow a0 a1 a2 a3 a4 a5 a6 a7 a8 a9 a10 e)) := by
  rw [val_main_v45_apply, val_main_cst_4_apply, Ideal.ofBits_def, Ideal.ofBits_zero_f32, zero_add]
  refine Finset.sum_congr rfl fun k _ => ?_
  rw [idx_v45, v44_at]

theorem v48_at (e : Fin 200000) :
    val_main_v48 (F := Ideal) a0 a1 a2 a3 a4 a5 a6 a7 a8 a9 a10 (ix2 e (0 : Fin 1)) = mean128 (fun j : Fin 128 => ((outRow a0 a1 a2 a3 a4 a5 a6 a7 a8 a9 a10 e) j - mean128 (outRow a0 a1 a2 a3 a4 a5 a6 a7 a8 a9 a10 e)) * ((outRow a0 a1 a2 a3 a4 a5 a6 a7 a8 a9 a10 e) j - mean128 (outRow a0 a1 a2 a3 a4 a5 a6 a7 a8 a9 a10 e))) := by
  rw [val_main_v48_apply, val_main_v46_apply, idx_v46, v45_at, v47_at, Ideal.hostDivf_def]
  rfl

/-! ## The normalised, scaled and shifted entry -/

theorem v50_at (e : Fin 200000) (q : Fin 128) :
    val_main_v50 (F := Ideal) a0 a1 a2 a3 a4 a5 a6 a7 a8 a9 a10 (ix2 e q) = (outRow a0 a1 a2 a3 a4 a5 a6 a7 a8 a9 a10 e) q - mean128 (outRow a0 a1 a2 a3 a4 a5 a6 a7 a8 a9 a10 e) := by
  rw [val_main_v50_apply, v37_at, val_main_v49_apply, idx_v49, v41_at, Ideal.subf_def]

theorem v54_at (e : Fin 200000) (q : Fin 128) :
    val_main_v54 (F := Ideal) a0 a1 a2 a3 a4 a5 a6 a7 a8 a9 a10 (ix2 e q) = Ideal.rsqrt (mean128 (fun j : Fin 128 => ((outRow a0 a1 a2 a3 a4 a5 a6 a7 a8 a9 a10 e) j - mean128 (outRow a0 a1 a2 a3 a4 a5 a6 a7 a8 a9 a10 e)) * ((outRow a0 a1 a2 a3 a4 a5 a6 a7 a8 a9 a10 e) j - mean128 (outRow a0 a1 a2 a3 a4 a5 a6 a7 a8 a9 a10 e))) + ceps) := by
  rw [val_main_v54_apply, idx_v54, val_main_v53_apply, val_main_v52_apply, v48_at, v51_at, Ideal.addf_def,
    Ideal.hostUnary_rsqrt_def]

theorem v61_at (e : Fin 200000) (q : Fin 128) :
    val_main_v61 (F := Ideal) a0 a1 a2 a3 a4 a5 a6 a7 a8 a9 a10 a11 a12 (ix2 e q)
      = layerNorm (outRow a0 a1 a2 a3 a4 a5 a6 a7 a8 a9 a10 e) (vec a11) (vec a12) q := by
  rw [val_main_v61_apply, val_main_v58_apply, val_main_v55_apply, v50_at, v54_at, v57_at, v60_at, Ideal.mulf_def,
    Ideal.mulf_def, Ideal.addf_def]
  rfl

/-- The reference's result at entry `(e, q)` is the specification's `trunkRow` of edge `e`'s feature row and the
    parameters, at `q`. -/
theorem ref_tail_apply (e : Fin 200000) (q : Fin 128) :
    val_main_v61 (F := Ideal) a0 a1 a2 a3 a4 a5 a6 a7 a8 a9 a10 a11 a12 (ix2 e q)
      = trunkRow (fun k : Fin 384 => val_main_v22 (F := Ideal) a0 a1 a2 a3 a4 (ix2 e k)) (fun (k c : Fin 384) => a5 (ix2 k c))
          (fun c : Fin 384 => a6 (ix1 c)) (fun (k c : Fin 384) => a7 (ix2 k c)) (fun c : Fin 384 => a8 (ix1 c))
          (fun (k : Fin 384) (j : Fin 128) => a9 (ix2 k j)) (fun j : Fin 128 => a10 (ix1 j)) (fun j : Fin 128 => a11 (ix1 j))
          (fun j : Fin 128 => a12 (ix1 j)) q :=
  v61_at a0 a1 a2 a3 a4 a5 a6 a7 a8 a9 a10 a11 a12 e q

end Trunk

end Cert.ReferenceIdeal.RefValue

end
-- ==== Proof.Bridge.lean ====
/-
  The two programs compute the same array.

  The kernel's result is, row by row, `trunkRow` of the edge feature matrix it built — the edges' own features joined
  to the gathered rows of ITS node table — and of the parameters (the half-precision copies of the weight matrices are
  the matrices themselves on the extended reals). The reference's result is, row by row, `trunkRow` of the feature
  matrix it built from ITS node table and of the same parameters. The two node tables are the same array: entry
  `(r, j)` of either is `∑ k, x (r, k) · w (k, j) + b j`. The two feature matrices are then the same operations applied to
  the same three arrays, and they are never opened.
-/
import proofs.«128243_j10479720203131_1_alg».proof.Proof.IdealHost
import proofs.«128243_j10479720203131_1_alg».proof.Proof.ValueNode
import proofs.«128243_j10479720203131_1_alg».proof.Proof.ValueTrunk
import proofs.«128243_j10479720203131_1_alg».proof.Proof.RefNode
import proofs.«128243_j10479720203131_1_alg».proof.Proof.RefTail

set_option maxRecDepth 16384

noncomputable section

namespace Cert.Bridge

open Cert.KernelIdeal Cert.KernelIdeal.Gen Cert.KernelIdeal.Hand Cert.KernelIdeal.Val Cert.Spec
open Idealize.ShloMosaic Idealize.ShloMosaic.TcCoe Idealize.ShloMosaic.ValueIdx
open Idealize.SL Idealize.SL.Sem

/-- The kernel's node table is the reference's: both are the node features times the weight matrix plus the bias row. -/
theorem nodeG_eq (a0 : S10000x256.Idx → EReal) (a3 : S256x128.Idx → EReal) (a4 : S128.Idx → EReal) :
    nodeG a0 a3 a4 = Cert.ReferenceIdeal.Read.val_main_v3 (F := Ideal) a0 a3 a4 := by
  funext i
  obtain ⟨r, j, rfl⟩ : ∃ (r : Fin 10000) (j : Fin 128), i = ix2 r j := ⟨i 0, i 1, eq_ix2 i⟩
  exact (Cert.ReferenceIdeal.RefValue.ref_node_apply a0 a3 a4 r j).symm

/-- The kernel's edge feature matrix over the reference's node table is the reference's edge feature matrix: the same
    gathers and the same join. -/
theorem hcat_eq (a0 : S10000x256.Idx → EReal) (a1 : S200000x128.Idx → EReal) (a2 : (⟨S2x200000, .i32⟩ : BufTy).Contents (Elt Ideal))
    (a3 : S256x128.Idx → EReal) (a4 : S128.Idx → EReal) :
    hcat (F := Ideal) (Cert.ReferenceIdeal.Read.val_main_v3 (F := Ideal) a0 a3 a4) a1 a2
      = Cert.ReferenceIdeal.Read.val_main_v22 (F := Ideal) a0 a1 a2 a3 a4 := by
  unfold Cert.ReferenceIdeal.Read.val_main_v22 Cert.ReferenceIdeal.Read.val_main_v12 Cert.ReferenceIdeal.Read.val_main_v21
  generalize Cert.ReferenceIdeal.Read.val_main_v3 (F := Ideal) a0 a3 a4 = nh
  rfl

variable (m : (ℓ : Loc nD τ sig) → Buf (Elt Ideal) ℓ) (ρ : Dev nD → PrngReg)

/-- The kernel's result array is the reference's function of the kernel's own launch memory. -/
theorem result_eq (c : Dev nD) :
    W4 m ρ c (Proc.devRef .tc main_v23)
      = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 9).trans ?_
  rw [final1_9 (V3 m ρ) c]
  rw [V3_main_v19 m ρ c, V3_main_v20 m ρ c, V3_main_v21 m ρ c, V3_main_v22 m ρ c,
    V3_arg m ρ c main_arg6 (by decide) (by decide), V3_arg m ρ c main_arg8 (by decide) (by decide),
    V3_arg m ρ c main_arg10 (by decide) (by decide), V3_arg m ρ c main_arg11 (by decide) (by decide),
    V3_arg m ρ c main_arg12 (by decide) (by decide),
    W2_arg m ρ c main_arg1 (by decide), W2_arg m ρ c main_arg2 (by decide), W2_arg m ρ c main_arg5 (by decide),
    W2_arg m ρ c main_arg7 (by decide), W2_arg m ρ c main_arg9 (by decide)]
  rw [show W2 m ρ c (Proc.devRef .tc main_v0)
      = nodeG (m ((c : Thread nD τ).loc main_arg0)) (m ((c : Thread nD τ).loc main_arg3)) (m ((c : Thread nD τ).loc main_arg4))
    from (W2_arr m ρ c 3).trans (final0_3 (V1 m ρ) c)]
  rw [nodeG_eq, hcat_eq]
  funext i
  obtain ⟨e, q, rfl⟩ : ∃ (e : Fin 200000) (q : Fin 128), i = ix2 e q := ⟨i 0, i 1, eq_ix2 i⟩
  refine Eq.trans ?_ (Cert.ReferenceIdeal.RefValue.ref_tail_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) e q).symm
  unfold trunkG
  exact trunkRow_congr q (fun _ => rfl) (fun _ _ => rfl) (fun _ => rfl) (fun _ _ => rfl) (fun _ => rfl) (fun _ _ => rfl)
    (fun _ => rfl) (fun _ => rfl) (fun _ => rfl)

end Cert.Bridge

end
-- ==== Proof.lean ====
/-
  The certificate: both programs run to the end on every input, leave their argument arrays as they found them, and —
  read on the extended reals, from memories that agree on the arguments — end with the same result array.

  The kernel is two launches with host operations between them. The first launch computes the node table
  `nh = node_emb · W0 + b0`, 2000 rows per grid point. The host operations gather, for every edge, the table's rows at the
  edge's two end nodes and join them to the edge's own features into a 200000 × 384 matrix `h`. The second launch maps
  every row of `h`, 2000 rows per grid point, through `max (h · Wt1 + bt1) 0`, `max (· Wt2 + bt2) 0`, the residual sum
  with `h`, `· Wf + bf`, and the normalisation of the 128 entries with scale `gamma` and shift `beta`. The reference
  computes the same thing with whole-array operations. On the extended reals a change of float format is the identity and
  a product accumulated block by block is the plain sum, so the two results are one function of the arguments, entry by
  entry; no law that needs finiteness is used, and the precondition is never opened.

  `preserves` is `True`: idealizing the kernel rewrote nothing.
-/
import proofs.«128243_j10479720203131_1_alg».proof.Defs
import proofs.«128243_j10479720203131_1_alg».proof.Proof.Gen.Kernel
import proofs.«128243_j10479720203131_1_alg».proof.Proof.Gen.KernelIdeal
import proofs.«128243_j10479720203131_1_alg».proof.Proof.Gen.ReferenceIdeal
import proofs.«128243_j10479720203131_1_alg».proof.Proof.Gen.ReferenceIdeal.Run
import proofs.«128243_j10479720203131_1_alg».proof.Proof.Gen.ReferenceIdeal.Read
import proofs.«128243_j10479720203131_1_alg».proof.Proof.Gen.Pre_finite_inputs
import proofs.«128243_j10479720203131_1_alg».proof.Proof.BitsRun
import proofs.«128243_j10479720203131_1_alg».proof.Proof.IdealRun
import proofs.«128243_j10479720203131_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- The reference has no launch: its run is its list of host operations, and its frame is that run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the (shared) arguments in their result arrays. -/
theorem algebraic : Cert.algebraic_KernelIdeal_ReferenceIdeal := by
  intro m ρ m' ρ' _ hagree
  refine ⟨fun c => Cert.KernelIdeal.Hand.W4 m ρ c (Proc.devRef .tc Cert.KernelIdeal.main_v23), ?_, ?_⟩
  · exact (θ_run Cert.KernelIdeal.defs _ _).mono (fun r h c =>
      ⟨h c _ (Cert.KernelIdeal.Hand.mem_uc Cert.KernelIdeal.main_v23 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c),
       (h c _ (Cert.KernelIdeal.Hand.mem_uc Cert.KernelIdeal.main_arg8 (by decide))).trans (Cert.KernelIdeal.Hand.W4_main_arg8 m ρ c),
       (h c _ (Cert.KernelIdeal.Hand.mem_uc Cert.KernelIdeal.main_arg9 (by decide))).trans (Cert.KernelIdeal.Hand.W4_main_arg9 m ρ c),
       (h c _ (Cert.KernelIdeal.Hand.mem_uc Cert.KernelIdeal.main_arg10 (by decide))).trans (Cert.KernelIdeal.Hand.W4_main_arg10 m ρ c),
       (h c _ (Cert.KernelIdeal.Hand.mem_uc Cert.KernelIdeal.main_arg11 (by decide))).trans (Cert.KernelIdeal.Hand.W4_main_arg11 m ρ c),
       (h c _ (Cert.KernelIdeal.Hand.mem_uc Cert.KernelIdeal.main_arg12 (by decide))).trans (Cert.KernelIdeal.Hand.W4_main_arg12 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
